-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel

variable [Facts]

def fn {F : FTy → Type} [FloatOps F] (main_arg0 : FVec F S4x4096x3 .f32) (main_arg1 : FVec F S4x4096x3 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096x3 .f32 := Host.absf main_arg1
  let main_cst_0 : FVec F S_ .f32 := constant S_ .f32 0x7F800000#32
  let main_v5 : FVec F S4x4096x3 .f32 := broadcastInDim S4x4096x3 ![] bcast_S_S4x4096x3 main_cst_0
  let main_v6 : IVec S4x4096x3 1 := cmpf .olt main_v4 main_v5
  let main_c_1 : IVec S_ 1 := constantI S_ 1 1#1
  let main_v7 : IVec S_ 1 := (fun x v => Host.reduce IntOp.andi x v reducesTo_S4x4096x3_S_d0_1_2 h_S_) main_v6 main_c_1
  let main_v8 : IVec S_ 1 := andi main_v3 main_v7
  main_v8
-- ==== Kernel.lean ====
abbrev S4x4096x3 : Shape := ⟨3, ![4, 4096, 3]⟩
abbrev S4x3x4096 : Shape := ⟨3, ![4, 3, 4096]⟩
abbrev S4x1x128 : Shape := ⟨3, ![4, 1, 128]⟩
abbrev S1x1024x3 : Shape := ⟨3, ![1, 1024, 3]⟩
abbrev S1x3x2048 : Shape := ⟨3, ![1, 3, 2048]⟩
abbrev S1x1x128 : Shape := ⟨3, ![1, 1, 128]⟩
abbrev S1x4096 : Shape := ⟨2, ![1, 4096]⟩
abbrev S1024x1 : Shape := ⟨2, ![1024, 1]⟩
abbrev S1x1 : Shape := ⟨2, ![1, 1]⟩
abbrev S1024x3 : Shape := ⟨2, ![1024, 3]⟩
abbrev S3x2048 : Shape := ⟨2, ![3, 2048]⟩
abbrev S1024 : Shape := ⟨1, ![1024]⟩
abbrev S2048 : Shape := ⟨1, ![2048]⟩
abbrev S1x2048 : Shape := ⟨2, ![1, 2048]⟩
abbrev S1024x2048 : Shape := ⟨2, ![1024, 2048]⟩
abbrev S1 : Shape := ⟨1, ![1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 14
  | .vmem => 11
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x3x4096, .f32⟩
  | .hbm, ⟨3, _⟩ => ⟨S4x1x128, .f32⟩
  | .hbm, ⟨4, _⟩ => ⟨S4x1x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S4x1x1, .f32⟩
  | .hbm, ⟨10, _⟩ => ⟨S4, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x128, .f32⟩
  | .local _ .vmem, ⟨5, _⟩ => ⟨S1x1x128, .f32⟩
  | .local _ .vmem, ⟨6, _⟩ => ⟨S1x1x128, .f32⟩
  | .local _ .vmem, ⟨7, _⟩ => ⟨S1x1x128, .f32⟩
  | .local _ .vmem, ⟨8, _⟩ => ⟨S1x4096, .f32⟩
  | .local _ .vmem, ⟨9, _⟩ => ⟨S1024x1, .f32⟩
  | .local _ .vmem, ⟨10, _⟩ => ⟨S1x1, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_mult1 (i : grid0.Coords) : BitVec 32 :=
  let arg2 : BitVec 32 := BitVec.ofNat 32 (i 2).val
  let c2048_i32 : BitVec 32 := 2048#32
  let v36 : BitVec 32 := Scalar.muli arg2 c2048_i32
  v36
def k0_off1 (i : grid0.Coords) : Fin 2 → Nat :=
  let c0_19 : Index := 0#32
  let arg2 : BitVec 32 := BitVec.ofNat 32 (i 2).val
  let c2048_i32 : BitVec 32 := 2048#32
  let v36 : BitVec 32 := Scalar.muli arg2 c2048_i32
  let v37 : BitVec 32 := v36
  let v38 : Index := Scalar.indexCast v37
  ![0, v38.toNat]
def k0_cond4 (i : grid0.Coords) : BitVec 1 :=
  let arg1 : BitVec 32 := BitVec.ofNat 32 (i 1).val
  let c3_i32 : BitVec 32 := 3#32
  let v48 : BitVec 1 := Scalar.cmpi .eq arg1 c3_i32
  let arg2 : BitVec 32 := BitVec.ofNat 32 (i 2).val
  let c1_i32_22 : BitVec 32 := 1#32
  let v49 : BitVec 1 := Scalar.cmpi .eq arg2 c1_i32_22
  let v50 : BitVec 1 := Scalar.andi v48 v49
  let v51 : BitVec 32 := Scalar.extui v50
  let c0_i32_23 : BitVec 32 := 0#32
  let v52 : BitVec 1 := Scalar.cmpi .ne v51 c0_i32_23
  v52

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

class Facts₀ : Prop where
  transposes_S4x4096x3_S4x3x4096_0_2_1 : S4x4096x3.Transposes [0, 2, 1] S4x3x4096
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  reduces_S1024x2048_S2048 : S1024x2048.Reduces [0] S2048
  h_S1x2048 : 0 < S1x2048.numel
  shapeCasts_S1x2048_S1x2048 : S1x2048.ShapeCasts S1x2048
  reduces_S1024x1_S1 : S1024x1.Reduces [0] S1
  shapeCasts_S1_S1x1 : S1.ShapeCasts S1x1
  reduces_S1x4096_S1 : S1x4096.Reduces [1] S1
  shapeCasts_S1x1_S1x1x1 : S1x1.ShapeCasts S1x1x1
  shapeCasts_S1x1x1_S1x1x1 : S1x1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S4x1x128_S4x1x1_0_0_0 : S4x1x128.Slices ![0, 0, 0] S4x1x1
  shapeCasts_S4x1x1_S4 : S4x1x1.ShapeCasts S4
  reducesTo_S4_S_d0 : S4.ReducesTo [0] S_
  h_S_ : 0 < S_.numel
  dot_S1024x3_S3x2048_S1024x2048_1_0_0_1_n_n_wf : DotDims.WF S1024x3 S3x2048 S1024x2048 [1] [0] [0] [1] [] []
  hrank0 : 0 < grid0.rank
  k0_mult1_dvd : ∀ i : grid0.Coords, 2048 ∣ (k0_mult1 i).toNat
  k0_off1_inb : ∀ i : grid0.Coords, ∀ a, (k0_off1 i) a + S1x2048.size a ≤ S1x4096.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S4x4096x3.size a
  hwx0_0 : ∀ i : grid0.Coords, EltTy.bits .f32 = 32 ∨ (Rect.block (s := S4x4096x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S4x3x4096.size a
  hwx0_1 : ∀ i : grid0.Coords, EltTy.bits .f32 = 32 ∨ (Rect.block (s := S4x3x4096) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x128.size a ≤ S4x1x128.size a
  hwx0_2 : ∀ i : grid0.Coords, EltTy.bits .f32 = 32 ∨ (Rect.block (s := S4x1x128) S1x1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x128.size a ≤ S4x1x128.size a
  hwx0_3 : ∀ i : grid0.Coords, EltTy.bits .f32 = 32 ∨ (Rect.block (s := S4x1x128) S1x1x128.size (cc0_transform_3 i) (hinb0_3 i)).WholeWords (EltTy.packing .f32)

variable [Facts₀]

def dot_S1024x3_S3x2048_S1024x2048_1_0_0_1_n_n : DotDims S1024x3 S3x2048 S1024x2048 where
  lhsContracting := [1]
  rhsContracting := [0]
  lhsNonContracting := [0]
  rhsNonContracting := [1]
  lhsBatch := []
  rhsBatch := []
  wf := dot_S1024x3_S3x2048_S1024x2048_1_0_0_1_n_n_wf

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1_0) S1x1x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1_1) S1x1x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond4 i == 1#1) | 3 => fun i => !(k0_cond4 i == 1#1) | ⟨_ + 4, h⟩ => absurd h (Nat.not_lt.2 (Nat.le_add_left _ _))

class Facts : Prop extends Facts₀ where

variable [Facts]
-- ==== ReferenceIdeal.lean ====
abbrev S4x4096x3 : Shape := ⟨3, ![4, 4096, 3]⟩
abbrev S4x4096x1x3 : Shape := ⟨4, ![4, 4096, 1, 3]⟩
abbrev S4x1x4096x3 : Shape := ⟨4, ![4, 1, 4096, 3]⟩
abbrev S4x4096x4096x3 : Shape := ⟨4, ![4, 4096, 4096, 3]⟩
abbrev S_ : Shape := ⟨0, ![]⟩
abbrev S4x4096x4096 : Shape := ⟨3, ![4, 4096, 4096]⟩
abbrev S4x4096 : Shape := ⟨2, ![4, 4096]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096x3, .f32⟩
  | .hbm, ⟨2, _⟩ => ⟨S4x4096x1x3, .f32⟩
  | .hbm, ⟨3, _⟩ => ⟨S4x1x4096x3, .f32⟩
  | .hbm, ⟨4, _⟩ => ⟨S4x4096x4096x3, .f32⟩
  | .hbm, ⟨5, _⟩ => ⟨S4x4096x4096x3, .f32⟩
  | .hbm, ⟨6, _⟩ => ⟨S4x4096x4096x3, .f32⟩
  | .hbm, ⟨7, _⟩ => ⟨S4x4096x4096x3, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S4x4096, .f32⟩
  | .hbm, ⟨17, _⟩ => ⟨S_, .f32⟩
  | .hbm, ⟨18, _⟩ => ⟨S_, .f32⟩
  | .hbm, ⟨19, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_cst_3 : Ref sig .tc := ⟨.hbm, 17, rfl⟩
abbrev main_v11 : Ref sig .tc := ⟨.hbm, 18, rfl⟩
abbrev main_v12 : Ref sig .tc := ⟨.hbm, 19, rfl⟩

abbrev nD : Nat := 1
abbrev τ : Topo := Topo.v7x

variable {F : FTy → Type} [FloatOps F]

class Facts₀ : Prop where
  bcast_S4x4096x3_S4x4096x1x3_0_1_3 : S4x4096x3.BroadcastsInDim S4x4096x1x3 (![0, 1, 3] : Fin 3 → Fin S4x4096x1x3.rank)
  bcast_S4x4096x3_S4x1x4096x3_0_2_3 : S4x4096x3.BroadcastsInDim S4x1x4096x3 (![0, 2, 3] : Fin 3 → Fin S4x1x4096x3.rank)
  bcast_S4x4096x1x3_S4x4096x4096x3_0_1_2_3 : S4x4096x1x3.BroadcastsInDim S4x4096x4096x3 (![0, 1, 2, 3] : Fin 4 → Fin S4x4096x4096x3.rank)
  bcast_S4x1x4096x3_S4x4096x4096x3_0_1_2_3 : S4x1x4096x3.BroadcastsInDim S4x4096x4096x3 (![0, 1, 2, 3] : Fin 4 → Fin S4x4096x4096x3.rank)
  reducesTo_S4x4096x4096x3_S4x4096x4096_d3 : S4x4096x4096x3.ReducesTo [3] S4x4096x4096
  h_S_ : 0 < S_.numel
  reducesTo_S4x4096x4096_S4x4096_d2 : S4x4096x4096.ReducesTo [2] S4x4096
  reducesTo_S4x4096_S_d0_1 : S4x4096.ReducesTo [0, 1] S_
  reducesTo_S4x4096x4096_S4x4096_d1 : S4x4096x4096.ReducesTo [1] S4x4096

variable [Facts₀]

class Facts : Prop extends Facts₀ where

variable [Facts]
-- ==== Proof.Spec.lean ====
/-
  The two directed Hausdorff terms, as functions of the point sets.

  `P b n k` is coordinate `k` of point `n` of batch `b` of the first set, `L b q k` of the second. The kernel works on
  SQUARED distances, expanded as ‖p‖² + ‖l‖² − 2·p·l and clamped at zero (`sqK`), takes minima and maxima of those, and a
  square root of each batch's two maxima; the reference takes the root of Σ (p − l)² first (`distR`) and minima and
  maxima afterwards. The square root on the extended reals is monotone and fixes both infinities, so it moves through
  minima and maxima; on finite entries the expansion is the sum of squared differences, which is nonnegative.
-/
import Idealize.ShloMosaic.PureOps.Ideal
import Idealize.ShloMosaic.PureOps.Ideal.Laws
import Idealize.ShloMosaic.Lib.ValueIdx

noncomputable section

namespace Hausdorff

open Idealize.ShloMosaic

/-- A family of points: batch, point, coordinate. -/
abbrev Pts := Fin 4 → Fin 4096 → Fin 3 → EReal

/-- An array of shape [4, 4096, 3] read as a family of points. -/
def ptsOf (x : FVec Ideal ⟨3, ![4, 4096, 3]⟩ .f32) : Pts := fun b n k => x (ValueIdx.ix3 b n k)

/-- The squared distance of point `n` of `P` and point `q` of `L` in batch `b`, the way the kernel expands it. -/
def sqK (P L : Pts) (b : Fin 4) (n q : Fin 4096) : EReal :=
  max (((∑ k : Fin 3, P b n k * P b n k) + (∑ k : Fin 3, L b q k * L b q k)) - 2 * (∑ k : Fin 3, P b n k * L b q k)) 0

/-- The distance of the same two points, the way the reference computes it. -/
def distR (P L : Pts) (b : Fin 4) (n q : Fin 4096) : EReal :=
  Ideal.sqrt (0 + ∑ k : Fin 3, (P b n k - L b q k) * (P b n k - L b q k))

/-- Batch `b`: the largest, over the points of `P`, of the squared distance to the nearest point of `L`. -/
def sqXY (P L : Pts) (b : Fin 4) : EReal :=
  (Finset.univ : Finset (Fin 4096)).fold max ⊥ fun n => (Finset.univ : Finset (Fin 4096)).fold min ⊤ fun q => sqK P L b n q

/-- Batch `b`: the largest, over the points of `L`, of the squared distance to the nearest point of `P`. -/
def sqYX (P L : Pts) (b : Fin 4) : EReal :=
  (Finset.univ : Finset (Fin 4096)).fold max ⊥ fun q => (Finset.univ : Finset (Fin 4096)).fold min ⊤ fun n => sqK P L b n q

/-- What the kernel returns: the largest root over the batches, for each direction, added. -/
def kerVal (P L : Pts) : EReal :=
  ((Finset.univ : Finset (Fin 4)).fold max ⊥ fun b => Ideal.sqrt (sqXY P L b))
    + ((Finset.univ : Finset (Fin 4)).fold max ⊥ fun b => Ideal.sqrt (sqYX P L b))

/-- What the reference returns: the two directed distances over all batches at once, added. -/
def refVal (P L : Pts) : EReal :=
  ((Finset.univ : Finset (Fin 4 × Fin 4096)).fold max ⊥ fun bn =>
      (Finset.univ : Finset (Fin 4096)).fold min ⊤ fun q => distR P L bn.1 bn.2 q)
    + ((Finset.univ : Finset (Fin 4 × Fin 4096)).fold max ⊥ fun bq =>
      (Finset.univ : Finset (Fin 4096)).fold min ⊤ fun n => distR P L bq.1 n bq.2)

/-- The four float literals of the two programs, as extended reals. -/
theorem lit_zero : Ideal.ofBits .f32 0x00000000#32 = 0 := Ideal.ofBits_zero_f32
theorem lit_pinf : Ideal.ofBits .f32 0x7F800000#32 = ⊤ := by simp [Ideal.ofBits, Ideal.ieee]
theorem lit_ninf : Ideal.ofBits .f32 0xFF800000#32 = ⊥ := by simp [Ideal.ofBits, Ideal.ieee]

end Hausdorff

end
-- ==== Proof.RefValue.lean ====
/-
  The reference's result, as a function of its two arguments read as families of points: the two directed terms
  of the specification, each a maximum over (batch, point) of a minimum over the other set's points of the distance,
  added. And: the precondition says that every coordinate of both arguments is a real number.
-/
import proofs.«152502_j46377056862526_2_alg».proof.Defs
import proofs.«152502_j46377056862526_2_alg».proof.Proof.Gen.ReferenceIdeal.Read
import proofs.«152502_j46377056862526_2_alg».proof.Proof.Gen.ReferenceIdeal
import proofs.«152502_j46377056862526_2_alg».proof.Proof.Gen.Pre_finite_inputs
import proofs.«152502_j46377056862526_2_alg».proof.Proof.Spec
import Idealize.ShloMosaic.Lib.ValueIdx
import Idealize.ShloMosaic.PureOps.Ideal.Laws
import Idealize.ShloMosaic.PureOps.Reduce
import Idealize.ShloMosaic.Lib.ReduceAll

noncomputable section

namespace Cert.ReferenceIdeal.RefValue

open Cert.ReferenceIdeal Cert.ReferenceIdeal.Gen Cert.ReferenceIdeal.Read Idealize.ShloMosaic Idealize.ShloMosaic.ValueIdx

/-! ## The three kinds of reduction of the reference, read as folds over coordinates -/

/-- A maximum over both axes of a [4, 4096] array, from an initial value: the fold of max over the pairs of coordinates. -/
theorem max_all (y : FVec Ideal S4x4096 .f32) (init : FVec Ideal S_ .f32) (j : S_.Idx) :
    Host.reduce FloatOps.maximumf y init reducesTo_S4x4096_S_d0_1 h_S_ j
      = (Finset.univ : Finset (Fin 4 × Fin 4096)).fold max (init (Shape.Idx.first h_S_)) fun bn => y (ix2 bn.1 bn.2) := by
  rw [Host.reduce_eq_fold]
  rw [Finset.filter_true_of_mem fun i _ => funext fun b => b.elim0]
  refine eq_of_forall_ge_iff fun c => ?_
  show Finset.fold max _ _ _ ≤ c ↔ _
  rw [Finset.fold_max_le, Finset.fold_max_le]
  refine and_congr_right fun _ => ⟨fun h bn _ => h _ (Finset.mem_univ _), fun h i _ => ?_⟩
  rw [eq_ix2 i]
  exact h (i 0, i 1) (Finset.mem_univ _)

/-- The shape facts of the two one-axis reductions, in the form that names the index with the reduced coordinate put back. -/
theorem reduces_d2 : S4x4096x4096.Reduces [2] S4x4096 := by decide
theorem reduces_d1 : S4x4096x4096.Reduces [1] S4x4096 := by decide

/-- A minimum along the last axis of a [4, 4096, 4096] array, at (b, n): the fold of min over the last coordinate. -/
theorem min_axis2 (y : FVec Ideal S4x4096x4096 .f32) (init : FVec Ideal S_ .f32) (b : Fin 4) (n : Fin 4096) :
    Host.reduce FloatOps.minimumf y init reducesTo_S4x4096x4096_S4x4096_d2 h_S_ (ix2 b n)
      = (Finset.univ : Finset (Fin 4096)).fold min (init (Shape.Idx.first h_S_)) fun q => y (ix3 b n q) := by
  rw [Host.reduce_eq_fold_single FloatOps.minimumf y init reducesTo_S4x4096x4096_S4x4096_d2 reduces_d2 h_S_ (ix2 b n)]
  show Finset.fold min _ _ (Finset.univ : Finset (Fin 4096)) = _
  refine congrArg (fun f => Finset.fold min _ f (Finset.univ : Finset (Fin 4096))) (funext fun q => ?_)
  show y _ = y _
  refine congrArg y (funext fun a => Fin.ext ?_)
  match a with
  | ⟨0, _⟩ => rfl
  | ⟨1, _⟩ => rfl
  | ⟨2, _⟩ => rfl

/-- A minimum along the middle axis of a [4, 4096, 4096] array, at (b, q): the fold of min over the middle coordinate. -/
theorem min_axis1 (y : FVec Ideal S4x4096x4096 .f32) (init : FVec Ideal S_ .f32) (b : Fin 4) (q : Fin 4096) :
    Host.reduce FloatOps.minimumf y init reducesTo_S4x4096x4096_S4x4096_d1 h_S_ (ix2 b q)
      = (Finset.univ : Finset (Fin 4096)).fold min (init (Shape.Idx.first h_S_)) fun n => y (ix3 b n q) := by
  rw [Host.reduce_eq_fold_single FloatOps.minimumf y init reducesTo_S4x4096x4096_S4x4096_d1 reduces_d1 h_S_ (ix2 b q)]
  show Finset.fold min _ _ (Finset.univ : Finset (Fin 4096)) = _
  refine congrArg (fun f => Finset.fold min _ f (Finset.univ : Finset (Fin 4096))) (funext fun n => ?_)
  show y _ = y _
  refine congrArg y (funext fun a => Fin.ext ?_)
  match a with
  | ⟨0, _⟩ => rfl
  | ⟨1, _⟩ => rfl
  | ⟨2, _⟩ => rfl

/-! ## One entry of the distance array -/

/-- Entry (b, n, q) of the array of distances is the distance of point n of the first set and point q of the second in batch b. -/
theorem v7_apply (x0 x1 : (⟨S4x4096x3, .f32⟩ : BufTy).Contents (Elt Ideal)) (b : Fin 4) (n q : Fin 4096) :
    val_main_v7 (F := Ideal) x0 x1 (ix3 b n q) = Hausdorff.distR (Hausdorff.ptsOf x0) (Hausdorff.ptsOf x1) b n q := by
  have e0 : ∀ k : Fin 3, idx_main_v0 (idx_main_v2 (idx_main_v6 (ix3 b n q) k)) = ix3 b n k := fun k =>
    funext fun a => Fin.ext (by
      match a with
      | ⟨0, _⟩ => rfl
      | ⟨1, _⟩ => rfl
      | ⟨2, _⟩ => rfl)
  have e1 : ∀ k : Fin 3, idx_main_v1 (idx_main_v3 (idx_main_v6 (ix3 b n q) k)) = ix3 b q k := fun k =>
    funext fun a => Fin.ext (by
      match a with
      | ⟨0, _⟩ => rfl
      | ⟨1, _⟩ => rfl
      | ⟨2, _⟩ => rfl)
  rw [val_main_v7_apply, val_main_v6_apply, val_main_cst_apply]
  simp only [val_main_v5_apply, val_main_v4_apply, val_main_v2_apply, val_main_v3_apply, val_main_v0_apply,
    val_main_v1_apply, e0, e1]
  simp only [Ideal.hostUnary_sqrt_def, Ideal.ofBits_def, Ideal.mulf_def, Ideal.subf_def, Hausdorff.lit_zero]
  rfl

/-! ## The reference's result -/

theorem ref_eq (x0 x1 : (⟨Cert.ReferenceIdeal.S4x4096x3, .f32⟩ : BufTy).Contents (Elt Ideal)) :
    Cert.ReferenceIdeal.Read.val_main_v12 (F := Ideal) x0 x1 = fun _ => Hausdorff.refVal (Hausdorff.ptsOf x0) (Hausdorff.ptsOf x1) := by
  funext i
  rw [val_main_v12_apply]
  unfold val_main_v9 val_main_v11
  rw [max_all, max_all]
  unfold val_main_v8 val_main_v10
  simp only [min_axis2, min_axis1, v7_apply, val_main_cst_0_apply, val_main_cst_1_apply, val_main_cst_2_apply,
    val_main_cst_3_apply, Ideal.ofBits_def, Hausdorff.lit_pinf, Hausdorff.lit_ninf, Ideal.addf_def]
  rfl

/-! ## The precondition: every coordinate is a real number -/

/-- An extended real whose absolute value is below +∞ is a real number. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

theorem finite_of_pre [Cert.Pre_finite_inputs.Facts] (a0 a1 : FVec Ideal Cert.Pre_finite_inputs.S4x4096x3 .f32)
    (h : Cert.Pre_finite_inputs.fn (F := Ideal) a0 a1 = fun _ => 1#1) :
    (∀ i, ∃ r : ℝ, a0 i = (r : EReal)) ∧ (∀ i, ∃ r : ℝ, a1 i = (r : EReal)) := by
  haveI : Subsingleton Cert.Pre_finite_inputs.S_.Idx := ⟨fun a b => funext fun d => d.elim0⟩
  have h0 := congrFun h ValueIdx.ix0
  dsimp only [Cert.Pre_finite_inputs.fn] at h0
  obtain ⟨hA, hB⟩ := IntOp.andi_eq_one.1 h0
  -- one element of either comparison array: |x| < +∞
  have key : ∀ (a : FVec Ideal Cert.Pre_finite_inputs.S4x4096x3 .f32) (i : Cert.Pre_finite_inputs.S4x4096x3.Idx),
      cmpf .olt (Host.absf a) (broadcastInDim Cert.Pre_finite_inputs.S4x4096x3 ![] Cert.Pre_finite_inputs.Facts.bcast_S_S4x4096x3
        (constant Cert.Pre_finite_inputs.S_ .f32 0x7F800000#32)) i = 1#1 → ∃ r : ℝ, a i = (r : EReal) := by
    intro a i hi
    rw [ValueIdx.cmpf_apply,
      broadcastInDim_apply _ Cert.Pre_finite_inputs.Facts.bcast_S_S4x4096x3 _ i ValueIdx.ix0 (fun d => d.elim0)] at hi
    have hc : (constant Cert.Pre_finite_inputs.S_ .f32 0x7F800000#32 : FVec Ideal _ .f32) ValueIdx.ix0
        = Ideal.ofBits .f32 0x7F800000#32 := rfl
    have ha : Host.absf a i = max (a i) (-(a i)) := rfl
    rw [hc, ha, Hausdorff.lit_pinf, Ideal.cmpf_def] at hi
    refine real_of_abs_lt_top (a i) ?_
    by_contra hn
    have : Ideal.cmp .olt (max (a i) (-(a i))) ⊤ = 0#1 := by
      show BitVec.ofBool (decide (_ < _)) = 0#1
      rw [decide_eq_false hn]; rfl
    rw [this] at hi
    exact absurd hi (by decide)
  exact ⟨fun i => key a0 i (Host.reduce_andi_all _ _ _ _ _ hA i), fun i => key a1 i (Host.reduce_andi_all _ _ _ _ _ hB i)⟩

end Cert.ReferenceIdeal.RefValue

end
-- ==== Proof.LibSqrtFold.lean ====
/-
  The square root on the extended reals and finite maxima and minima.

  The square root of the extended reals — the real root on nonnegative reals, the bottom element on negative reals, and
  each infinity sent to itself — is monotone. A monotone map on a linear order commutes with binary maxima and minima,
  so, fixing both infinities, the root commutes with the maximum (from −∞) and the minimum (from +∞) of any finite
  family. A maximum of maxima over two finite index types is the maximum over the pairs, and likewise for minima: both
  sides have the same upper (lower) bounds. The float word 0x40000000 denotes the number two.
-/
import Idealize.ShloMosaic.PureOps.Ideal
import Idealize.ShloMosaic.PureOps.Ideal.Laws

noncomputable section

namespace Idealize.ShloMosaic.SqrtFold

open Idealize.ShloMosaic

/-- The single-precision float word 0x40000000 denotes two. -/
theorem lit_two : Ideal.ofBits .f32 0x40000000#32 = 2 := by
  simp [Ideal.ofBits, Ideal.ieee, -EReal.coe_mul]
  norm_num
  rfl

/-- The square root on the extended reals is monotone (negative arguments go to the bottom element). -/
theorem sqrt_mono : Monotone Ideal.sqrt := by
  intro x y hxy
  induction x using EReal.rec with
  | bot => simp
  | top =>
    have hy : y = ⊤ := top_le_iff.mp hxy
    subst hy
    exact le_refl _
  | coe r =>
    induction y using EReal.rec with
    | bot => simp at hxy
    | top => simp
    | coe s =>
      have hrs : r ≤ s := EReal.coe_le_coe_iff.mp hxy
      simp only [Ideal.sqrt_coe]
      by_cases hr : r < 0
      · simp [hr]
      · have hs : ¬ s < 0 := not_lt.mpr (le_trans (not_lt.mp hr) hrs)
        simp only [hr, hs, if_false]
        exact EReal.coe_le_coe_iff.mpr (Real.sqrt_le_sqrt hrs)

/-- The square root moves through a finite maximum taken from −∞. -/
theorem sqrt_fold_max {ι : Type*} (s : Finset ι) (f : ι → EReal) :
    Ideal.sqrt (s.fold max ⊥ f) = s.fold max ⊥ fun i => Ideal.sqrt (f i) := by
  classical
  induction s using Finset.induction_on with
  | empty => simp
  | insert a s ha ih =>
    rw [Finset.fold_insert ha, Finset.fold_insert ha, sqrt_mono.map_max, ih]

/-- The square root moves through a finite minimum taken from +∞. -/
theorem sqrt_fold_min {ι : Type*} (s : Finset ι) (f : ι → EReal) :
    Ideal.sqrt (s.fold min ⊤ f) = s.fold min ⊤ fun i => Ideal.sqrt (f i) := by
  classical
  induction s using Finset.induction_on with
  | empty => simp
  | insert a s ha ih =>
    rw [Finset.fold_insert ha, Finset.fold_insert ha, sqrt_mono.map_min, ih]

/-- A maximum of maxima over two finite types is the maximum over all pairs. -/
theorem fold_max_prod {α β : Type*} [Fintype α] [Fintype β] (f : α → β → EReal) :
    ((Finset.univ : Finset α).fold max ⊥ fun a => (Finset.univ : Finset β).fold max ⊥ fun b => f a b)
      = (Finset.univ : Finset (α × β)).fold max ⊥ fun p => f p.1 p.2 := by
  apply eq_of_forall_ge_iff
  intro c
  simp only [Finset.fold_max_le, Finset.mem_univ, true_implies, bot_le, true_and, Prod.forall]

/-- A minimum of minima over two finite types is the minimum over all pairs. -/
theorem fold_min_prod {α β : Type*} [Fintype α] [Fintype β] (f : α → β → EReal) :
    ((Finset.univ : Finset α).fold min ⊤ fun a => (Finset.univ : Finset β).fold min ⊤ fun b => f a b)
      = (Finset.univ : Finset (α × β)).fold min ⊤ fun p => f p.1 p.2 := by
  apply eq_of_forall_le_iff
  intro c
  simp only [Finset.le_fold_min, Finset.mem_univ, true_implies, le_top, true_and, Prod.forall]

end Idealize.ShloMosaic.SqrtFold

end
-- ==== Proof.HausMath.lean ====
/-
  The mathematics of the Hausdorff terms on the extended reals: the square root is monotone and fixes both
  infinities, so it commutes with finite maxima and minima; on finite coordinates the expanded squared distance
  ‖p‖² + ‖l‖² − 2·p·l is the sum of squared differences, hence nonnegative, so the clamp at zero does nothing; and a
  maximum over batches of maxima over points is one maximum over all pairs.
-/
import proofs.«152502_j46377056862526_2_alg».proof.Proof.Spec
import proofs.«152502_j46377056862526_2_alg».proof.Proof.LibSqrtFold

noncomputable section

namespace Hausdorff

open Idealize.ShloMosaic

/-- The float literal two. -/
theorem lit_two : Ideal.ofBits .f32 0x40000000#32 = 2 := SqrtFold.lit_two

/-- On finite coordinates the clamped expansion is the sum of squared differences, so its root is the distance. -/
theorem sqrt_sqK (P L : Pts) (hP : ∀ b n k, ∃ r : ℝ, P b n k = (r : EReal))
    (hL : ∀ b q k, ∃ r : ℝ, L b q k = (r : EReal)) (b : Fin 4) (n q : Fin 4096) :
    Ideal.sqrt (sqK P L b n q) = distR P L b n q := by
  choose p hp using hP
  choose l hl using hL
  unfold sqK distR
  have h2 : (2 : EReal) = ((2 : ℝ) : EReal) := rfl
  simp only [Fin.sum_univ_three, hp, hl, h2, zero_add]
  simp only [← EReal.coe_mul, ← EReal.coe_add, ← EReal.coe_sub]
  have key : p b n 0 * p b n 0 + p b n 1 * p b n 1 + p b n 2 * p b n 2
        + (l b q 0 * l b q 0 + l b q 1 * l b q 1 + l b q 2 * l b q 2)
        - 2 * (p b n 0 * l b q 0 + p b n 1 * l b q 1 + p b n 2 * l b q 2)
      = (p b n 0 - l b q 0) * (p b n 0 - l b q 0) + (p b n 1 - l b q 1) * (p b n 1 - l b q 1)
        + (p b n 2 - l b q 2) * (p b n 2 - l b q 2) := by ring
  have hnn : 0 ≤ (p b n 0 - l b q 0) * (p b n 0 - l b q 0) + (p b n 1 - l b q 1) * (p b n 1 - l b q 1)
        + (p b n 2 - l b q 2) * (p b n 2 - l b q 2) :=
    add_nonneg (add_nonneg (mul_self_nonneg _) (mul_self_nonneg _)) (mul_self_nonneg _)
  rw [key, max_eq_left (EReal.coe_nonneg.mpr hnn)]

/-- The kernel's value and the reference's value agree on finite point sets. -/
theorem kerVal_eq_refVal (P L : Pts) (hP : ∀ b n k, ∃ r : ℝ, P b n k = (r : EReal))
    (hL : ∀ b q k, ∃ r : ℝ, L b q k = (r : EReal)) : kerVal P L = refVal P L := by
  unfold kerVal refVal sqXY sqYX
  simp only [SqrtFold.sqrt_fold_max, SqrtFold.sqrt_fold_min, sqrt_sqK P L hP hL]
  congr 1
  · exact SqrtFold.fold_max_prod fun b n => (Finset.univ : Finset (Fin 4096)).fold min ⊤ fun q => distR P L b n q
  · exact SqrtFold.fold_max_prod fun b q => (Finset.univ : Finset (Fin 4096)).fold min ⊤ fun n => distR P L b n q

end Hausdorff

end
-- ==== Proof.Assembly.lean ====
/-
  The certificate's five claims, put together from the parts.

  The three frame claims are the generated frames (the reference's from its generated run). The idealization rewrote no
  operation, so there is nothing to preserve. The value claim: at the extended reals the kernel's program ends with
  the Hausdorff value computed on squared distances (`Hausdorff.kerVal` of the two point sets — the hypothesis
  `hker`, which the kernel's value modules prove), the reference's generated run ends with the value computed on
  distances (`Hausdorff.refVal`), and on finite point sets — which the precondition gives — the two are equal.
-/
import proofs.«152502_j46377056862526_2_alg».proof.Defs
import proofs.«152502_j46377056862526_2_alg».proof.Proof.Gen.Kernel
import proofs.«152502_j46377056862526_2_alg».proof.Proof.Gen.Kernel.Skeleton
import proofs.«152502_j46377056862526_2_alg».proof.Proof.Gen.Kernel.Launch
import proofs.«152502_j46377056862526_2_alg».proof.Proof.Gen.Kernel.Points
import proofs.«152502_j46377056862526_2_alg».proof.Proof.Gen.Kernel.Frame
import proofs.«152502_j46377056862526_2_alg».proof.Proof.Gen.KernelIdeal
import proofs.«152502_j46377056862526_2_alg».proof.Proof.Gen.KernelIdeal.Skeleton
import proofs.«152502_j46377056862526_2_alg».proof.Proof.Gen.KernelIdeal.Launch
import proofs.«152502_j46377056862526_2_alg».proof.Proof.Gen.KernelIdeal.Points
import proofs.«152502_j46377056862526_2_alg».proof.Proof.Gen.KernelIdeal.Frame
import proofs.«152502_j46377056862526_2_alg».proof.Proof.Gen.ReferenceIdeal
import proofs.«152502_j46377056862526_2_alg».proof.Proof.Gen.Pre_finite_inputs
import proofs.«152502_j46377056862526_2_alg».proof.Proof.Gen.ReferenceIdeal.Read
import proofs.«152502_j46377056862526_2_alg».proof.Proof.RefValue
import proofs.«152502_j46377056862526_2_alg».proof.Proof.HausMath
import proofs.«152502_j46377056862526_2_alg».proof.Proof.Spec
import Idealize.ShloMosaic.Adequacy
import Idealize.ShloMosaic.Init

noncomputable section

namespace Cert.Proof.Parts

open Idealize.ShloMosaic Idealize.SL.Sem

/-- The kernel as printed runs and leaves its arguments unchanged: the generated frame. -/
theorem frame_k : Cert.frame_Kernel := fun m ρ _ => Cert.Kernel.Gen.frame m ρ

/-- So does the kernel read at the extended reals. -/
theorem frame_ki : Cert.frame_KernelIdeal := fun m ρ _ => Cert.KernelIdeal.Gen.frame m ρ

/-- So does the reference: the frame part of its generated run. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The value claim, from the kernel's value: both programs end with one value, `Hausdorff.kerVal` of the two point
    sets, because on point sets of real coordinates it is `Hausdorff.refVal` of them. -/
theorem algebraic_of
    (hker : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v8)
              = (fun _ => Hausdorff.kerVal (Hausdorff.ptsOf (m ((c.tc : Thread Cert.KernelIdeal.nD Cert.KernelIdeal.τ).loc Cert.KernelIdeal.main_arg0))) (Hausdorff.ptsOf (m ((c.tc : Thread Cert.KernelIdeal.nD Cert.KernelIdeal.τ).loc Cert.KernelIdeal.main_arg1))))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.algebraic_KernelIdeal_ReferenceIdeal := by
  intro m ρ m' ρ' hpre hagree
  refine ⟨fun c => fun _ => Hausdorff.kerVal
      (Hausdorff.ptsOf (m ((c.tc : Thread Cert.KernelIdeal.nD Cert.KernelIdeal.τ).loc Cert.KernelIdeal.main_arg0)))
      (Hausdorff.ptsOf (m ((c.tc : Thread Cert.KernelIdeal.nD Cert.KernelIdeal.τ).loc Cert.KernelIdeal.main_arg1))),
    hker m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.ref_eq, (hagree c).1, (hagree c).2]
  obtain ⟨h0, h1⟩ := Cert.ReferenceIdeal.RefValue.finite_of_pre _ _ (hpre c)
  funext _
  exact (Hausdorff.kerVal_eq_refVal _ _ (fun b n k => h0 (ValueIdx.ix3 b n k)) (fun b q k => h1 (ValueIdx.ix3 b q k))).symm

/-- The certificate's claim, from the kernel's value. -/
theorem claim_of
    (hker : ∀ (m : (ℓ : Loc Cert.KernelIdeal.nD Cert.KernelIdeal.τ Cert.KernelIdeal.sig) → Buf (Elt Ideal) ℓ) (ρ : Dev Cert.KernelIdeal.nD → PrngReg),
        θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v8)
              = (fun _ => Hausdorff.kerVal (Hausdorff.ptsOf (m ((c.tc : Thread Cert.KernelIdeal.nD Cert.KernelIdeal.τ).loc Cert.KernelIdeal.main_arg0))) (Hausdorff.ptsOf (m ((c.tc : Thread Cert.KernelIdeal.nD Cert.KernelIdeal.τ).loc Cert.KernelIdeal.main_arg1))))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hker⟩

end Cert.Proof.Parts

end
-- ==== Proof.Pieces.lean ====
import proofs.«152502_j46377056862526_2_alg».proof.Proof.Gen.KernelIdeal.Frame
import Idealize.ShloMosaic.Lib.Pipeline.Value

set_option maxRecDepth 16384

noncomputable section

/-
  What each of the body's four control cases leaves in the three running buffers and the two outputs, as pure terms of
  the point's two input blocks and of what the point before left.

  The body keeps three running values per batch: `xs0`, for every point of the second set the least squared distance to
  the points of the first set seen so far (a row of 4096); `xs1`, for the 1024 points of the current row tile the least
  squared distance to the points of the second set seen so far; `xs2`, the largest of the completed `xs1` entries.
  A tile of squared distances updates 2048 columns of `xs0` (those of its column tile: `colRect`) and all of `xs1`;
  the first tile of a batch starts `xs0` at +∞ and `xs2` at −∞, the first tile of a row starts `xs1` at +∞, the last
  tile of a row folds `xs1` into `xs2`, and the last tile of a batch writes the two square roots.
-/
namespace Cert.KernelIdeal.Pieces

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

variable {F : FTy → Type} [FloatOps F]

/-- The columns the point's tile covers in the row of running column minima. -/
abbrev colRect (i : grid0.Coords) : Rect S1x4096 := Rect.unit (s := S1x4096) (k0_off1 i) S1x2048.size (k0_off1_inb i)

theorem hz3 : (![0, 0, 0] : Fin 3 → Nat) = fun _ => 0 := by funext a; fin_cases a <;> rfl
theorem hz2 : (![0, 0] : Fin 2 → Nat) = fun _ => 0 := by funext a; fin_cases a <;> rfl

/-- The row of column minima after a tile: the tile's columns rewritten, the others kept. -/
def colUpd (arg7 : Memref sig .tc .vmem S1x4096 .f32) (harg7 : arg7.IsWhole) (i : grid0.Coords) (xs0 : Vec F S1x4096 .f32)
    (w : (colRect i).shape.Idx → Elt F .f32) : Vec F S1x4096 .f32 :=
  arg7.view.read (Elt F) (arg7.view.writes (Elt F) (harg7.unread xs0) [⟨colRect i, w⟩])

theorem colUpd_emb (arg7 : Memref sig .tc .vmem S1x4096 .f32) (harg7 : arg7.IsWhole) (i : grid0.Coords) (xs0 : Vec F S1x4096 .f32)
    (w : (colRect i).shape.Idx → Elt F .f32) (x : (colRect i).shape.Idx) :
    colUpd arg7 harg7 i xs0 w ((colRect i).emb x) = w x :=
  View.read_writes_cons_emb _ _ (colRect i) w [] x

theorem colUpd_of_not_mem (arg7 : Memref sig .tc .vmem S1x4096 .f32) (harg7 : arg7.IsWhole) (i : grid0.Coords) (xs0 : Vec F S1x4096 .f32)
    (w : (colRect i).shape.Idx → Elt F .f32) (y : S1x4096.Idx) (hy : y ∉ (colRect i).set) :
    colUpd arg7 harg7 i xs0 w y = xs0 y := by
  unfold colUpd
  rw [View.read_writes_apply_of_forall_not_mem _ _ y _ (fun p hp => by
    rw [List.mem_singleton] at hp; subst hp; exact hy), harg7.read_unread]

/-! ## The first tile of a batch -/

theorem sA1 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x1024x3 .f32) (x1 : Vec F S1x3x2048 .f32) :
    sout0_A_1 (F := F) c i arg3 harg3 arg4 harg4 arg5 harg5 arg6 harg6 arg7 harg7 arg8 harg8 arg9 harg9 hc0 hc1 hc2 hc3 x0 x1 = k0_pay9 x0 x1 (k0_pay7 (F := F)) := by
  unfold sout0_A_1
  rw [View.read_writes_eq_canon _ _ _ (scover0_A_1 c i arg3 harg3 arg4 harg4 arg5 harg5 arg6 harg6 arg7 harg7 arg8 harg8 arg9 harg9 hc0 hc1 hc2 hc3 x0 x1)]
  unfold kernelRun0_A
  dsimp only
  sl_unfold_run_names
  rw [View.canon_cons_unit_zero hz2]
  simp only [View.readAt_eq_ld, harg3.read_unread, harg4.read_unread, View.ld_unit_zero (S := S1x1024x3) hz3,
    View.ld_unit_zero (S := S1x3x2048) hz3]
  rw [View.readCov_unit_zero (S := S1024x1) arg8.view hz2]

theorem sA2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x1024x3 .f32) (x1 : Vec F S1x3x2048 .f32) :
    sout0_A_2 (F := F) c i arg3 harg3 arg4 harg4 arg5 harg5 arg6 harg6 arg7 harg7 arg8 harg8 arg9 harg9 hc0 hc1 hc2 hc3 x0 x1 = k0_pay5 (F := F) := by
  unfold sout0_A_2
  rw [View.read_writes_eq_canon _ _ _ (scover0_A_2 c i arg3 harg3 arg4 harg4 arg5 harg5 arg6 harg6 arg7 harg7 arg8 harg8 arg9 harg9 hc0 hc1 hc2 hc3 x0 x1)]
  unfold kernelRun0_A
  dsimp only
  sl_unfold_run_names
  rw [View.canon_unit_zero hz2]

/-- The first tile of a batch: the row of column minima starts at +∞ and the tile's columns take the tile's minima. -/
theorem sA0_emb (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x1024x3 .f32) (x1 : Vec F S1x3x2048 .f32) (x : (colRect i).shape.Idx) :
    sout0_A_0 (F := F) c i arg3 harg3 arg4 harg4 arg5 harg5 arg6 harg6 arg7 harg7 arg8 harg8 arg9 harg9 hc0 hc1 hc2 hc3 x0 x1 ((colRect i).emb x)
      = k0_pay1 (k0_pay8 x0 x1) (View.ld (k0_pay6 (F := F)) (colRect i)) x := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1)]
  unfold kernelRun0_A
  dsimp only
  sl_unfold_run_names
  show View.canon ((⟨colRect i, _⟩ : View.Piece (Elt F) S1x4096 .f32) :: _) ((colRect i).emb x) = _
  rw [View.canon_cons_emb]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]
  rw [View.read_writes_eq_canon _ _ _ (View.cover_of_wholeMem _ (by sl_whole_mem)), View.canon_unit_zero hz2]

theorem sA0_of_not_mem (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : cond0_0 i) (hc1 : cond0_1 i) (hc2 : ¬cond0_2 i) (hc3 : ¬cond0_3 i) (x0 : Vec F S1x1024x3 .f32) (x1 : Vec F S1x3x2048 .f32) (y : S1x4096.Idx) (hy : y ∉ (colRect i).set) :
    sout0_A_0 (F := F) c i arg3 harg3 arg4 harg4 arg5 harg5 arg6 harg6 arg7 harg7 arg8 harg8 arg9 harg9 hc0 hc1 hc2 hc3 x0 x1 y = k0_pay6 (F := F) y := by
  unfold sout0_A_0
  rw [View.read_writes_eq_canon _ _ _ (scover0_A_0 c i arg3 harg3 arg4 harg4 arg5 harg5 arg6 harg6 arg7 harg7 arg8 harg8 arg9 harg9 hc0 hc1 hc2 hc3 x0 x1)]
  unfold kernelRun0_A
  dsimp only
  sl_unfold_run_names
  refine (View.canon_cons_of_not_mem (⟨colRect i, _⟩ : View.Piece (Elt F) S1x4096 .f32) _ hy).trans ?_
  rw [View.canon_unit_zero hz2]

/-! ## The first tile of a later row -/

theorem sC0 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x1024x3 .f32) (x1 : Vec F S1x3x2048 .f32) (xs0 : Vec F S1x4096 .f32) (xs2 : Vec F S1x1 .f32) :
    sout0_C_0 (F := F) c i arg3 harg3 arg4 harg4 arg5 harg5 arg6 harg6 arg7 harg7 arg8 harg8 arg9 harg9 hc0 hc1 hc2 hc3 x0 x1 xs0 xs2
      = colUpd arg7 harg7 i xs0 (k0_pay1 (k0_pay8 x0 x1) (View.ld xs0 (colRect i))) := by
  unfold sout0_C_0 colUpd
  unfold kernelRun0_C
  dsimp only
  sl_unfold_run_names
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

theorem sC1 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : cond0_1 i) (hc2 : ¬cond0_2 i) (hc3 : ¬cond0_3 i) (x0 : Vec F S1x1024x3 .f32) (x1 : Vec F S1x3x2048 .f32) (xs0 : Vec F S1x4096 .f32) (xs2 : Vec F S1x1 .f32) :
    sout0_C_1 (F := F) c i arg3 harg3 arg4 harg4 arg5 harg5 arg6 harg6 arg7 harg7 arg8 harg8 arg9 harg9 hc0 hc1 hc2 hc3 x0 x1 xs0 xs2 = k0_pay9 x0 x1 (k0_pay7 (F := F)) := by
  unfold sout0_C_1
  rw [View.read_writes_eq_canon _ _ _ (scover0_C_1 c i arg3 harg3 arg4 harg4 arg5 harg5 arg6 harg6 arg7 harg7 arg8 harg8 arg9 harg9 hc0 hc1 hc2 hc3 x0 x1 xs0 xs2)]
  unfold kernelRun0_C
  dsimp only
  sl_unfold_run_names
  rw [View.canon_cons_unit_zero hz2]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]
  rw [View.readCov_unit_zero (S := S1024x1) arg8.view hz2]

/-! ## The last tile of a row -/

theorem sB0 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1024x1 .f32) (xs2 : Vec F S1x1 .f32) :
    sout0_B_0 (F := F) c i arg3 harg3 arg4 harg4 arg5 harg5 arg6 harg6 arg7 harg7 arg8 harg8 arg9 harg9 hc0 hc1 hc2 hc3 x0 x1 xs0 xs1 xs2
      = colUpd arg7 harg7 i xs0 (k0_pay1 (k0_pay8 x0 x1) (View.ld xs0 (colRect i))) := by
  unfold sout0_B_0 colUpd
  unfold kernelRun0_B
  dsimp only
  sl_unfold_run_names
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

theorem sB1 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1024x1 .f32) (xs2 : Vec F S1x1 .f32) :
    sout0_B_1 (F := F) c i arg3 harg3 arg4 harg4 arg5 harg5 arg6 harg6 arg7 harg7 arg8 harg8 arg9 harg9 hc0 hc1 hc2 hc3 x0 x1 xs0 xs1 xs2 = k0_pay9 x0 x1 xs1 := by
  unfold sout0_B_1
  rw [View.read_writes_eq_canon _ _ _ (scover0_B_1 c i arg3 harg3 arg4 harg4 arg5 harg5 arg6 harg6 arg7 harg7 arg8 harg8 arg9 harg9 hc0 hc1 hc2 hc3 x0 x1 xs0 xs1 xs2)]
  unfold kernelRun0_B
  dsimp only
  sl_unfold_run_names
  rw [View.canon_unit_zero hz2]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

theorem sB2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : ¬cond0_3 i) (x0 : Vec F S1x1024x3 .f32) (x1 : Vec F S1x3x2048 .f32) (xs0 : Vec F S1x4096 .f32) (xs1 : Vec F S1024x1 .f32) (xs2 : Vec F S1x1 .f32) :
    sout0_B_2 (F := F) c i arg3 harg3 arg4 harg4 arg5 harg5 arg6 harg6 arg7 harg7 arg8 harg8 arg9 harg9 hc0 hc1 hc2 hc3 x0 x1 xs0 xs1 xs2 = k0_pay2 (k0_pay9 x0 x1 xs1) xs2 := by
  unfold sout0_B_2
  rw [View.read_writes_eq_canon _ _ _ (scover0_B_2 c i arg3 harg3 arg4 harg4 arg5 harg5 arg6 harg6 arg7 harg7 arg8 harg8 arg9 harg9 hc0 hc1 hc2 hc3 x0 x1 xs0 xs1 xs2)]
  unfold kernelRun0_B
  dsimp only
  sl_unfold_run_names
  rw [View.canon_unit_zero hz2]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]
  rw [View.readCov_unit_zero (S := S1024x1) arg8.view hz2]

/-! ## The last tile of a batch -/

theorem sD0 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1024x1 .f32) (xs2 : Vec F S1x1 .f32) :
    sout0_D_0 (F := F) c i arg3 harg3 arg4 harg4 arg5 harg5 arg6 harg6 arg7 harg7 arg8 harg8 arg9 harg9 hc0 hc1 hc2 hc3 x0 x1 xs0 xs1 xs2
      = colUpd arg7 harg7 i xs0 (k0_pay1 (k0_pay8 x0 x1) (View.ld xs0 (colRect i))) := by
  unfold sout0_D_0 colUpd
  unfold kernelRun0_D
  dsimp only
  sl_unfold_run_names
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

theorem sD1 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1024x1 .f32) (xs2 : Vec F S1x1 .f32) :
    sout0_D_1 (F := F) c i arg3 harg3 arg4 harg4 arg5 harg5 arg6 harg6 arg7 harg7 arg8 harg8 arg9 harg9 hc0 hc1 hc2 hc3 x0 x1 xs0 xs1 xs2 = k0_pay9 x0 x1 xs1 := by
  unfold sout0_D_1
  rw [View.read_writes_eq_canon _ _ _ (scover0_D_1 c i arg3 harg3 arg4 harg4 arg5 harg5 arg6 harg6 arg7 harg7 arg8 harg8 arg9 harg9 hc0 hc1 hc2 hc3 x0 x1 xs0 xs1 xs2)]
  unfold kernelRun0_D
  dsimp only
  sl_unfold_run_names
  rw [View.canon_unit_zero hz2]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

theorem sD2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1024x1 .f32) (xs2 : Vec F S1x1 .f32) :
    sout0_D_2 (F := F) c i arg3 harg3 arg4 harg4 arg5 harg5 arg6 harg6 arg7 harg7 arg8 harg8 arg9 harg9 hc0 hc1 hc2 hc3 x0 x1 xs0 xs1 xs2 = k0_pay2 (k0_pay9 x0 x1 xs1) xs2 := by
  unfold sout0_D_2
  rw [View.read_writes_eq_canon _ _ _ (scover0_D_2 c i arg3 harg3 arg4 harg4 arg5 harg5 arg6 harg6 arg7 harg7 arg8 harg8 arg9 harg9 hc0 hc1 hc2 hc3 x0 x1 xs0 xs1 xs2)]
  unfold kernelRun0_D
  dsimp only
  sl_unfold_run_names
  rw [View.canon_unit_zero hz2]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]
  rw [View.readCov_unit_zero (S := S1024x1) arg8.view hz2]

/-- The first output: the root of the largest completed row minimum, in every lane. -/
theorem oD2 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1024x1 .f32) (xs2 : Vec F S1x1 .f32) :
    out0_D_2 (F := F) c i arg3 harg3 arg4 harg4 arg5 harg5 arg6 harg6 arg7 harg7 arg8 harg8 arg9 harg9 hc0 hc1 hc2 hc3 x0 x1 xs0 xs1 xs2 = k0_pay3 (k0_pay2 (k0_pay9 x0 x1 xs1) xs2) := by
  unfold out0_D_2
  rw [View.read_writes_eq_canon _ _ _ (cover0_D_2 c i arg3 harg3 arg4 harg4 arg5 harg5 arg6 harg6 arg7 harg7 arg8 harg8 arg9 harg9 hc0 hc1 hc2 hc3 x0 x1 xs0 xs1 xs2)]
  unfold kernelRun0_D
  dsimp only
  sl_unfold_run_names
  rw [View.canon_unit_zero hz3]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]
  rw [View.readCov_unit_zero (S := S1x1) arg9.view hz2, View.readCov_unit_zero (S := S1024x1) arg8.view hz2]

/-- The second output: the root of the largest column minimum, in every lane. -/
theorem oD3 (c : Dev nD) (i : grid0.Coords) (arg3 : Memref sig .tc .vmem S1x1024x3 .f32) (harg3 : arg3.IsWhole) (arg4 : Memref sig .tc .vmem S1x3x2048 .f32) (harg4 : arg4.IsWhole) (arg5 : Memref sig .tc .vmem S1x1x128 .f32) (harg5 : arg5.IsWhole) (arg6 : Memref sig .tc .vmem S1x1x128 .f32) (harg6 : arg6.IsWhole) (arg7 : Memref sig .tc .vmem S1x4096 .f32) (harg7 : arg7.IsWhole) (arg8 : Memref sig .tc .vmem S1024x1 .f32) (harg8 : arg8.IsWhole) (arg9 : Memref sig .tc .vmem S1x1 .f32) (harg9 : arg9.IsWhole) (hc0 : ¬cond0_0 i) (hc1 : ¬cond0_1 i) (hc2 : cond0_2 i) (hc3 : cond0_3 i) (x0 : Vec F S1x1024x3 .f32) (x1 : Vec F S1x3x2048 .f32) (xs0 : Vec F S1x4096 .f32) (xs1 : Vec F S1024x1 .f32) (xs2 : Vec F S1x1 .f32) :
    out0_D_3 (F := F) c i arg3 harg3 arg4 harg4 arg5 harg5 arg6 harg6 arg7 harg7 arg8 harg8 arg9 harg9 hc0 hc1 hc2 hc3 x0 x1 xs0 xs1 xs2
      = k0_pay4 (colUpd arg7 harg7 i xs0 (k0_pay1 (k0_pay8 x0 x1) (View.ld xs0 (colRect i)))) := by
  unfold out0_D_3 colUpd
  rw [View.read_writes_eq_canon _ _ _ (cover0_D_3 c i arg3 harg3 arg4 harg4 arg5 harg5 arg6 harg6 arg7 harg7 arg8 harg8 arg9 harg9 hc0 hc1 hc2 hc3 x0 x1 xs0 xs1 xs2)]
  unfold kernelRun0_D
  dsimp only
  sl_unfold_run_names
  rw [View.canon_unit_zero hz3]
  simp only [View.readAt_eq_ld, harg3.read_unread, harg4.read_unread, harg7.read_unread, harg8.read_unread, harg9.read_unread,
    View.ld_unit_zero (S := S1x1024x3) hz3, View.ld_unit_zero (S := S1x3x2048) hz3, View.ld_unit_zero (S := S1024x1) hz2,
    View.ld_unit_zero (S := S1x1) hz2, View.ld_unit_zero (S := S1x4096) hz2]

end Cert.KernelIdeal.Pieces
end
-- ==== Proof.State.lean ====
/-
  The running buffers after each grid point, case by case: the generated recursion over the points, with each case's
  found pieces replaced by the pure terms they are.
-/
import proofs.«152502_j46377056862526_2_alg».proof.Proof.Pieces

set_option maxRecDepth 16384

noncomputable section

namespace Cert.KernelIdeal.State

open Cert.KernelIdeal Cert.KernelIdeal.Gen Cert.KernelIdeal.Pieces
open Idealize.ShloMosaic Idealize.ShloMosaic.TcCoe
open Idealize.SL Idealize.SL.Sem

variable {F : FTy → Type} [FloatOps F]
variable (m : (ℓ : Loc nD τ sig) → Buf (Elt F) ℓ)

/-- What the point before left (outputs and running buffers). -/
abbrev prev (c : Dev nD) (t : Fin cfg0.N) := outsAt0 m c (t.val - 1) (Nat.lt_of_le_of_lt (Nat.sub_le _ _) t.isLt)

/-- The point's tile of squared distances. -/
abbrev tile (c : Dev nD) (t : Fin cfg0.N) : FVec F S1024x2048 .f32 := k0_pay8 (iblk m c 0 t) (iblk m c 1 t)

/-! ## The first tile of a batch -/

theorem rows_A (c : Dev nD) (t : Fin cfg0.N) (h0 : t.val % 8 = 0) (h1 : t.val % 2 = 0) (h2 : ¬t.val % 2 = 1) (h3 : ¬t.val % 8 = 7) :
    (outsAt0 m c t.val t.isLt).2.2.2.1 = k0_pay9 (iblk m c 0 t) (iblk m c 1 t) (k0_pay7 (F := F)) := by
  rw [outsAt0_A m c t h0 h1 h2 h3]; dsimp only
  exact sA1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t)

theorem acc_A (c : Dev nD) (t : Fin cfg0.N) (h0 : t.val % 8 = 0) (h1 : t.val % 2 = 0) (h2 : ¬t.val % 2 = 1) (h3 : ¬t.val % 8 = 7) :
    (outsAt0 m c t.val t.isLt).2.2.2.2 = k0_pay5 (F := F) := by
  rw [outsAt0_A m c t h0 h1 h2 h3]; dsimp only
  exact sA2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t)

theorem cols_A_emb (c : Dev nD) (t : Fin cfg0.N) (h0 : t.val % 8 = 0) (h1 : t.val % 2 = 0) (h2 : ¬t.val % 2 = 1) (h3 : ¬t.val % 8 = 7) (x : (colRect (grid0.coords t)).shape.Idx) :
    (outsAt0 m c t.val t.isLt).2.2.1 ((colRect (grid0.coords t)).emb x)
      = k0_pay1 (tile m c t) (View.ld (k0_pay6 (F := F)) (colRect (grid0.coords t))) x := by
  rw [outsAt0_A m c t h0 h1 h2 h3]; dsimp only
  exact sA0_emb (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) x

theorem cols_A_of_not_mem (c : Dev nD) (t : Fin cfg0.N) (h0 : t.val % 8 = 0) (h1 : t.val % 2 = 0) (h2 : ¬t.val % 2 = 1) (h3 : ¬t.val % 8 = 7) (y : S1x4096.Idx) (hy : y ∉ (colRect (grid0.coords t)).set) :
    (outsAt0 m c t.val t.isLt).2.2.1 y = k0_pay6 (F := F) y := by
  rw [outsAt0_A m c t h0 h1 h2 h3]; dsimp only
  exact sA0_of_not_mem (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) ((hcond0_0 t).mpr h0) ((hcond0_1 t).mpr h1) (fun h => h2 ((hcond0_2 t).mp h)) (fun h => h3 ((hcond0_3 t).mp h)) (iblk m c 0 t) (iblk m c 1 t) y hy

/-! ## The first tile of a later row -/

theorem cols_C (c : Dev nD) (t : Fin cfg0.N) (h0 : ¬t.val % 8 = 0) (h1 : t.val % 2 = 0) (h2 : ¬t.val % 2 = 1) (h3 : ¬t.val % 8 = 7) :
    (outsAt0 m c t.val t.isLt).2.2.1 = colUpd scM0_0 (Memref.isWhole_whole _) (grid0.coords t) (prev m c t).2.2.1 (k0_pay1 (tile m c t) (View.ld (prev m c t).2.2.1 (colRect (grid0.coords t)))) := by
  rw [outsAt0_C m c t h0 h1 h2 h3]; dsimp only
  exact sC0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prev m c t).2.2.1 (prev m c t).2.2.2.2

theorem rows_C (c : Dev nD) (t : Fin cfg0.N) (h0 : ¬t.val % 8 = 0) (h1 : t.val % 2 = 0) (h2 : ¬t.val % 2 = 1) (h3 : ¬t.val % 8 = 7) :
    (outsAt0 m c t.val t.isLt).2.2.2.1 = k0_pay9 (iblk m c 0 t) (iblk m c 1 t) (k0_pay7 (F := F)) := by
  rw [outsAt0_C m c t h0 h1 h2 h3]; dsimp only
  exact sC1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) ((hcond0_1 t).mpr h1) (fun h => h2 ((hcond0_2 t).mp h)) (fun h => h3 ((hcond0_3 t).mp h)) (iblk m c 0 t) (iblk m c 1 t) (prev m c t).2.2.1 (prev m c t).2.2.2.2

theorem acc_C (c : Dev nD) (t : Fin cfg0.N) (h0 : ¬t.val % 8 = 0) (h1 : t.val % 2 = 0) (h2 : ¬t.val % 2 = 1) (h3 : ¬t.val % 8 = 7) :
    (outsAt0 m c t.val t.isLt).2.2.2.2 = (prev m c t).2.2.2.2 := by
  rw [outsAt0_C m c t h0 h1 h2 h3]; dsimp only
  rfl

/-! ## The last tile of a row -/

theorem cols_B (c : Dev nD) (t : Fin cfg0.N) (h0 : ¬t.val % 8 = 0) (h1 : ¬t.val % 2 = 0) (h2 : t.val % 2 = 1) (h3 : ¬t.val % 8 = 7) :
    (outsAt0 m c t.val t.isLt).2.2.1 = colUpd scM0_0 (Memref.isWhole_whole _) (grid0.coords t) (prev m c t).2.2.1 (k0_pay1 (tile m c t) (View.ld (prev m c t).2.2.1 (colRect (grid0.coords t)))) := by
  rw [outsAt0_B m c t h0 h1 h2 h3]; dsimp only
  exact sB0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.2.1 (prev m c t).2.2.2.1 (prev m c t).2.2.2.2

theorem rows_B (c : Dev nD) (t : Fin cfg0.N) (h0 : ¬t.val % 8 = 0) (h1 : ¬t.val % 2 = 0) (h2 : t.val % 2 = 1) (h3 : ¬t.val % 8 = 7) :
    (outsAt0 m c t.val t.isLt).2.2.2.1 = k0_pay9 (iblk m c 0 t) (iblk m c 1 t) (prev m c t).2.2.2.1 := by
  rw [outsAt0_B m c t h0 h1 h2 h3]; dsimp only
  exact sB1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.2.1 (prev m c t).2.2.2.1 (prev m c t).2.2.2.2

theorem acc_B (c : Dev nD) (t : Fin cfg0.N) (h0 : ¬t.val % 8 = 0) (h1 : ¬t.val % 2 = 0) (h2 : t.val % 2 = 1) (h3 : ¬t.val % 8 = 7) :
    (outsAt0 m c t.val t.isLt).2.2.2.2 = k0_pay2 (k0_pay9 (iblk m c 0 t) (iblk m c 1 t) (prev m c t).2.2.2.1) (prev m c t).2.2.2.2 := by
  rw [outsAt0_B m c t h0 h1 h2 h3]; dsimp only
  exact sB2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) (fun h => h3 ((hcond0_3 t).mp h)) (iblk m c 0 t) (iblk m c 1 t) (prev m c t).2.2.1 (prev m c t).2.2.2.1 (prev m c t).2.2.2.2

/-! ## The last tile of a batch -/

theorem cols_D (c : Dev nD) (t : Fin cfg0.N) (h0 : ¬t.val % 8 = 0) (h1 : ¬t.val % 2 = 0) (h2 : t.val % 2 = 1) (h3 : t.val % 8 = 7) :
    (outsAt0 m c t.val t.isLt).2.2.1 = colUpd scM0_0 (Memref.isWhole_whole _) (grid0.coords t) (prev m c t).2.2.1 (k0_pay1 (tile m c t) (View.ld (prev m c t).2.2.1 (colRect (grid0.coords t)))) := by
  rw [outsAt0_D m c t h0 h1 h2 h3]; dsimp only
  exact sD0 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.2.1 (prev m c t).2.2.2.1 (prev m c t).2.2.2.2

theorem rows_D (c : Dev nD) (t : Fin cfg0.N) (h0 : ¬t.val % 8 = 0) (h1 : ¬t.val % 2 = 0) (h2 : t.val % 2 = 1) (h3 : t.val % 8 = 7) :
    (outsAt0 m c t.val t.isLt).2.2.2.1 = k0_pay9 (iblk m c 0 t) (iblk m c 1 t) (prev m c t).2.2.2.1 := by
  rw [outsAt0_D m c t h0 h1 h2 h3]; dsimp only
  exact sD1 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.2.1 (prev m c t).2.2.2.1 (prev m c t).2.2.2.2

theorem acc_D (c : Dev nD) (t : Fin cfg0.N) (h0 : ¬t.val % 8 = 0) (h1 : ¬t.val % 2 = 0) (h2 : t.val % 2 = 1) (h3 : t.val % 8 = 7) :
    (outsAt0 m c t.val t.isLt).2.2.2.2 = k0_pay2 (k0_pay9 (iblk m c 0 t) (iblk m c 1 t) (prev m c t).2.2.2.1) (prev m c t).2.2.2.2 := by
  rw [outsAt0_D m c t h0 h1 h2 h3]; dsimp only
  exact sD2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.2.1 (prev m c t).2.2.2.1 (prev m c t).2.2.2.2

theorem out2_D (c : Dev nD) (t : Fin cfg0.N) (h0 : ¬t.val % 8 = 0) (h1 : ¬t.val % 2 = 0) (h2 : t.val % 2 = 1) (h3 : t.val % 8 = 7) :
    (outsAt0 m c t.val t.isLt).1 = k0_pay3 (k0_pay2 (k0_pay9 (iblk m c 0 t) (iblk m c 1 t) (prev m c t).2.2.2.1) (prev m c t).2.2.2.2) := by
  rw [outsAt0_D m c t h0 h1 h2 h3]; dsimp only
  exact oD2 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.2.1 (prev m c t).2.2.2.1 (prev m c t).2.2.2.2

theorem out3_D (c : Dev nD) (t : Fin cfg0.N) (h0 : ¬t.val % 8 = 0) (h1 : ¬t.val % 2 = 0) (h2 : t.val % 2 = 1) (h3 : t.val % 8 = 7) :
    (outsAt0 m c t.val t.isLt).2.1 = k0_pay4 (colUpd scM0_0 (Memref.isWhole_whole _) (grid0.coords t) (prev m c t).2.2.1 (k0_pay1 (tile m c t) (View.ld (prev m c t).2.2.1 (colRect (grid0.coords t))))) := by
  rw [outsAt0_D m c t h0 h1 h2 h3]; dsimp only
  exact oD3 (F := F) c (grid0.coords t) (ms0_0 t) (hs0_0 t) (ms0_1 t) (hs0_1 t) (ms0_2 t) (hs0_2 t) (ms0_3 t) (hs0_3 t) scM0_0 (Memref.isWhole_whole _) scM0_1 (Memref.isWhole_whole _) scM0_2 (Memref.isWhole_whole _) (fun h => h0 ((hcond0_0 t).mp h)) (fun h => h1 ((hcond0_1 t).mp h)) ((hcond0_2 t).mpr h2) ((hcond0_3 t).mpr h3) (iblk m c 0 t) (iblk m c 1 t) (prev m c t).2.2.1 (prev m c t).2.2.2.1 (prev m c t).2.2.2.2

end Cert.KernelIdeal.State

end
-- ==== Proof.LibRowReduce.lean ====
import Idealize.ShloMosaic.PureOps.Ideal.Laws
import Idealize.ShloMosaic.Lib.ValueIdx
import Idealize.ShloMosaic.Lib.ValueLayout
import Idealize.ShloMosaic.Lib.Pipeline.Value

noncomputable section

namespace Idealize.ShloMosaic.RowReduce

open Idealize.ShloMosaic Idealize.ShloMosaic.ValueIdx

variable {α : Type} {a b : Nat}

/-! ## A column kept as a unit axis -/

/-- A vector of length `a` cast to an `[a, 1]` column reads, at `(i, u)`, the vector at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast along the rows to `[a, b]` reads, at `(p, c)`, the column at row `p`. -/
theorem broadcastTo_a1_ab_apply (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- So a per-row value kept as a column and broadcast back over the row is, at `(p, c)`, the value of row `p`. -/
theorem keepdims_apply (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (p : Fin a) (c : Fin b) :
    broadcastTo ⟨2, ![a, b]⟩ (shapeCast ⟨2, ![a, 1]⟩ x hc) hb (ix2 p c) = x (ix1 p) :=
  (broadcastTo_a1_ab_apply _ hb p c).trans (shapeCast_a_a1_apply x hc p 0)

/-! ## A reduction along the rows of a matrix -/

/-- The index of row `p` with the column `k` put back. -/
theorem lift_ix1 (h : (⟨2, ![a, b]⟩ : Shape).Reduces [1] ⟨1, ![a]⟩) (p : Fin a) (k : Fin b) :
    h.lift (ix1 p) k = ix2 p k :=
  funext fun c => Fin.ext (by
    match c with
    | ⟨0, _⟩ => rfl
    | ⟨1, _⟩ => rfl)

/-- Over the extended reals the sum along each row, at row `p`, is the sum of the row's entries. -/
theorem rowSum_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_ix1 h p k))

/-- Over the extended reals the maximum along each row, at row `p`, is the fold of `max` over the row's entries from the
    value the reduction starts at. -/
theorem rowMax_apply {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (FloatOps.ofBits φ acc) (fun k => src (ix2 p k)) :=
  (Ideal.multiReduction_maximumf_single src acc h hφ hacc (ix1 p)).trans
    (congrArg (Finset.fold max (FloatOps.ofBits φ acc) · (Finset.univ : Finset (Fin b)))
      (funext fun k => congrArg src (lift_ix1 h p k)))

end Idealize.ShloMosaic.RowReduce

end
-- ==== Proof.LibAxisReduce.lean ====
/-
  Reductions along one axis of a matrix, a matrix product, and values kept on unit axes, read at an index — over the
  extended reals.

  A reduction of an `a × b` matrix along its rows (axis 1) or down its columns (axis 0) leaves a vector; read at a kept
  coordinate it is the sum, or the fold of `min` or `max` from the value the reduction starts at, over the reduced
  coordinate. The two float words of the infinities are `⊤` and `⊥`, so a minimum started at `+∞` and a maximum started at
  `−∞` are characterised by their bounds alone. A vector of per-column values kept as a `1 × b` row and spread down the
  columns reads the value of its column. The product of an `m × k` and a `k × n` matrix accumulated into the zero matrix
  reads, at `(a, b)`, the sum over the contracted coordinate of the products of the entries. A `1 × 1` value's square
  root given a third unit axis and spread over `n` lanes reads the root of the value in every lane.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

namespace Idealize.ShloMosaic.AxisReduce

open Idealize.ShloMosaic Idealize.ShloMosaic.ValueIdx

/-! ## The two infinities as float words -/

/-- The f32 word of `+∞` is the top of the extended reals. -/
theorem ofBits_pinf : Ideal.ofBits .f32 0x7F800000#32 = ⊤ := by simp [Ideal.ofBits, Ideal.ieee]

/-- The f32 word of `−∞` is the bottom of the extended reals. -/
theorem ofBits_ninf : Ideal.ofBits .f32 0xFF800000#32 = ⊥ := by simp [Ideal.ofBits, Ideal.ieee]

/-! ## Reductions along one axis of a matrix, read at the kept coordinate -/

section Reductions
variable {a b : Nat} {φ : FTy}

/-- The index of row `p` with the column `k` put back. -/
theorem lift_ix1 (h : (⟨2, ![a, b]⟩ : Shape).Reduces [1] ⟨1, ![a]⟩) (p : Fin a) (k : Fin b) :
    h.lift (ix1 p) k = ix2 p k :=
  funext fun d => Fin.ext (by
    match d with
    | ⟨0, _⟩ => rfl
    | ⟨1, _⟩ => rfl)

/-- The index of column `c` with the row `k` put back. -/
theorem lift_ix0 (h : (⟨2, ![a, b]⟩ : Shape).Reduces [0] ⟨1, ![b]⟩) (c : Fin b) (k : Fin a) :
    h.lift (ix1 c) k = ix2 k c :=
  funext fun d => Fin.ext (by
    match d with
    | ⟨0, _⟩ => rfl
    | ⟨1, _⟩ => rfl)

/-- Over the extended reals a minimum over one axis, at a kept index, is the fold of `min` over that axis's coordinates
    from the value the reduction starts at. -/
theorem multiReduction_minimumf_single {s t : Shape} {ax : Fin s.rank} (src : FVec Ideal s φ) (acc : BitVec φ.bits)
    (h : s.Reduces [ax] t) (hφ : FKind.Formats φ) (hacc : acc = FKind.minimumf.neutral φ hφ) (j : t.Idx) :
    multiReduction .minimumf [ax] t src acc h hφ hacc j
      = (Finset.univ : Finset (Fin (s.size ax))).fold min (FloatOps.ofBits φ acc) (src ∘ h.lift j) := by
  rw [multiReduction_minimumf_eq_fold]; exact h.fold_filter_drop_single _ _ src j

/-- The minimum along each row, at row `p`: the fold of `min` over the row's entries. -/
theorem rowMin_apply (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (FloatOps.ofBits φ acc) (fun k => src (ix2 p k)) :=
  (multiReduction_minimumf_single src acc h hφ hacc (ix1 p)).trans
    (congrArg (Finset.fold min (FloatOps.ofBits φ acc) · (Finset.univ : Finset (Fin b)))
      (funext fun k => congrArg src (lift_ix1 h p k)))

/-- The minimum down each column, at column `c`: the fold of `min` over the column's entries. -/
theorem colMin_apply (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ) (c : Fin b) :
    multiReduction .minimumf [0] ⟨1, ![b]⟩ src acc h hφ hacc (ix1 c)
      = (Finset.univ : Finset (Fin a)).fold min (FloatOps.ofBits φ acc) (fun k => src (ix2 k c)) :=
  (multiReduction_minimumf_single src acc h hφ hacc (ix1 c)).trans
    (congrArg (Finset.fold min (FloatOps.ofBits φ acc) · (Finset.univ : Finset (Fin a)))
      (funext fun k => congrArg src (lift_ix0 h c k)))

/-- The maximum down each column, at column `c`: the fold of `max` over the column's entries. -/
theorem colMax_apply (src : FVec Ideal ⟨2, ![a, b]⟩ φ) (acc : BitVec φ.bits)
    (h : (⟨2, ![a, b]⟩ : Shape).Reduces [0] ⟨1, ![b]⟩) (hφ : FKind.Formats φ) (hacc : acc = FKind.maximumf.neutral φ hφ) (c : Fin b) :
    multiReduction .maximumf [0] ⟨1, ![b]⟩ src acc h hφ hacc (ix1 c)
      = (Finset.univ : Finset (Fin a)).fold max (FloatOps.ofBits φ acc) (fun k => src (ix2 k c)) :=
  (Ideal.multiReduction_maximumf_single src acc h hφ hacc (ix1 c)).trans
    (congrArg (Finset.fold max (FloatOps.ofBits φ acc) · (Finset.univ : Finset (Fin a)))
      (funext fun k => congrArg src (lift_ix0 h c k)))

/-- The sum down each column, at column `c`: the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (c : Fin b) :
    multiReduction .add [0] ⟨1, ![b]⟩ src acc h hφ hacc (ix1 c) = ∑ k : Fin a, src (ix2 k c) :=
  (Ideal.multiReduction_add_single src acc h hφ hacc (ix1 c)).trans
    (Finset.sum_congr rfl fun k _ => congrArg src (lift_ix0 h c k))

end Reductions

/-! ## A row kept as a unit axis -/

/-- A per-column value kept as a `1 × b` row and spread down the columns of an `a × b` matrix is, at `(p, c)`, the value
    of column `c`. -/
theorem keepdims_row_apply {α : Type} {a b : Nat} (x : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ x hc) hb (ix2 p c) = x (ix1 c) :=
  (broadcastTo_1b_ab_apply _ hb p c).trans (shapeCast_a_1a_apply x hc 0 c)

/-! ## A matrix product into the zero matrix -/

/-- The product of an `m × k` and a `k × n` matrix accumulated into the zero matrix reads, at `(a, b)`, the sum over the
    contracted coordinate of the products of the entries. `w` is the dimension numbers' well-formedness, which a program states. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (F := Ideal) ⟨2, ![m, n]⟩ .f32 0x00000000#32) (ix2 a b)
      = ∑ c : Fin k, A (ix2 a c) * B (ix2 c b) := by
  refine (Ideal.matmul_constant_zero_apply _ prec A B (ix2 a b)).trans ?_
  rw [← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## A square root read through unit axes -/

/-- A `[1, 1, 1]` value spread over `n` lanes reads its one entry in every lane. -/
theorem broadcastTo_111_11n_apply {α : Type} {n : Nat} (v : (⟨3, ![1, 1, 1]⟩ : Shape).Idx → α)
    (hb : (⟨3, ![1, 1, 1]⟩ : Shape).Broadcasts ⟨3, ![1, 1, n]⟩) (l : Fin n) :
    broadcastTo ⟨3, ![1, 1, n]⟩ v hb (ix3 (0 : Fin 1) (0 : Fin 1) l) = v (ix3 (0 : Fin 1) (0 : Fin 1) (0 : Fin 1)) := by
  refine broadcastTo_apply v hb (ix3 (0 : Fin 1) (0 : Fin 1) l) (ix3 (0 : Fin 1) (0 : Fin 1) (0 : Fin 1)) fun ax => ?_
  match ax with
  | ⟨0, _⟩ => rfl
  | ⟨1, _⟩ => rfl
  | ⟨2, _⟩ => rfl

/-- A `[1, 1]` value's square root, given a third unit axis (through a cast to its own shape) and spread over `n` lanes,
    reads the root of the value in every lane. -/
theorem sqrt_lanes_apply {n : Nat} {φ : FTy} (w : FVec Ideal ⟨2, ![1, 1]⟩ φ)
    (h1 : (⟨2, ![1, 1]⟩ : Shape).ShapeCasts ⟨3, ![1, 1, 1]⟩) (h2 : (⟨3, ![1, 1, 1]⟩ : Shape).ShapeCasts ⟨3, ![1, 1, 1]⟩)
    (hb : (⟨3, ![1, 1, 1]⟩ : Shape).Broadcasts ⟨3, ![1, 1, n]⟩) (l : Fin n) :
    broadcastTo ⟨3, ![1, 1, n]⟩ (shapeCast ⟨3, ![1, 1, 1]⟩ (shapeCast ⟨3, ![1, 1, 1]⟩ (sqrt w) h1) h2) hb (ix3 0 0 l)
      = Ideal.sqrt (w (ix2 0 0)) := by
  refine (broadcastTo_111_11n_apply _ hb l).trans ?_
  rw [shapeCast_self]
  exact shapeCast_ab_1ab_apply (sqrt w) h1 0 0 0

end Idealize.ShloMosaic.AxisReduce

end
-- ==== Proof.Payloads.lean ====
/-
  The kernel body's arithmetic read at an index, over the extended reals.

  Each payload of the body is one pure term of the values read before it. Here every one of them is read at an
  index given by its coordinates: the constant fills are the two infinities; the running minima and maxima are
  characterised by their universal properties (a lower bound of a minimum is a lower bound of every entry and of the
  value carried in; an upper bound of a maximum likewise); the square roots are read through the unit axes; and the
  squared distance of row point `r` and column point `q` is the clamped expansion ‖p‖² + ‖l‖² − 2·p·l.
-/
import proofs.«152502_j46377056862526_2_alg».proof.Proof.Gen.KernelIdeal.Skeleton
import proofs.«152502_j46377056862526_2_alg».proof.Proof.LibRowReduce
import proofs.«152502_j46377056862526_2_alg».proof.Proof.LibAxisReduce
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.KernelIdeal.Pay

open Cert.KernelIdeal Cert.KernelIdeal.Gen Idealize.ShloMosaic Idealize.ShloMosaic.ValueIdx Idealize.ShloMosaic.AxisReduce

/-! ## The constant fills -/

/-- The running maximum starts at −∞. -/
theorem pay5_apply (i : S1x1.Idx) : k0_pay5 (F := Ideal) i = ⊥ := by
  unfold k0_pay5
  rw [shapeCast_self]
  exact ofBits_ninf

/-- The running column minima start at +∞. -/
theorem pay6_apply (i : S1x4096.Idx) : k0_pay6 (F := Ideal) i = ⊤ := by
  unfold k0_pay6
  rw [shapeCast_self]
  exact ofBits_pinf

/-- The running row minima start at +∞. -/
theorem pay7_apply (i : S1024x1.Idx) : k0_pay7 (F := Ideal) i = ⊤ := by
  unfold k0_pay7
  rw [shapeCast_self]
  exact ofBits_pinf

/-! ## The running minima and maxima -/

/-- The row minima carried on: the value carried in, against the smallest squared distance of the row. -/
theorem pay9_eq (x0 : Vec Ideal S1x1024x3 .f32) (x1 : Vec Ideal S1x3x2048 .f32) (v29 : Vec Ideal S1024x1 .f32) (r : Fin 1024) :
    k0_pay9 (F := Ideal) x0 x1 v29 (ix2 r 0)
      = min (v29 (ix2 r 0)) ((Finset.univ : Finset (Fin 2048)).fold min ⊤ fun q => k0_pay8 (F := Ideal) x0 x1 (ix2 r q)) := by
  unfold k0_pay9
  rw [shapeCast_self]
  refine congrArg (min (v29 (ix2 r 0))) ?_
  refine (RowReduce.shapeCast_a_a1_apply _ _ r 0).trans ?_
  refine (rowMin_apply _ _ _ _ _ r).trans ?_
  show (Finset.univ : Finset (Fin 2048)).fold min (Ideal.ofBits .f32 0x7F800000#32) _ = _
  rw [ofBits_pinf]

/-- A lower bound of the carried-on row minimum bounds the value carried in and every squared distance of the row. -/
theorem pay9_le (x0 : Vec Ideal S1x1024x3 .f32) (x1 : Vec Ideal S1x3x2048 .f32) (v29 : Vec Ideal S1024x1 .f32) (r : Fin 1024) (c : EReal) :
    c ≤ k0_pay9 (F := Ideal) x0 x1 v29 (ix2 r 0) ↔ c ≤ v29 (ix2 r 0) ∧ ∀ q : Fin 2048, c ≤ k0_pay8 (F := Ideal) x0 x1 (ix2 r q) := by
  rw [pay9_eq, le_min_iff, Finset.le_fold_min]
  exact ⟨fun h => ⟨h.1, fun q => h.2.2 q (Finset.mem_univ q)⟩, fun h => ⟨h.1, le_top, fun q _ => h.2 q⟩⟩

/-- The column minima carried on: the value carried in, against the smallest entry of the column. -/
theorem pay1_eq (v26 : FVec Ideal S1024x2048 .f32) (v39 : Vec Ideal S1x2048 .f32) (q : Fin 2048) :
    k0_pay1 (F := Ideal) v26 v39 (ix2 0 q)
      = min (v39 (ix2 0 q)) ((Finset.univ : Finset (Fin 1024)).fold min ⊤ fun r => v26 (ix2 r q)) := by
  unfold k0_pay1
  rw [shapeCast_self]
  refine congrArg (min (v39 (ix2 0 q))) ?_
  refine (shapeCast_a_1a_apply _ _ 0 q).trans ?_
  refine (colMin_apply _ _ _ _ _ q).trans ?_
  show (Finset.univ : Finset (Fin 1024)).fold min (Ideal.ofBits .f32 0x7F800000#32) _ = _
  rw [ofBits_pinf]

/-- A lower bound of the carried-on column minimum bounds the value carried in and every entry of the column. -/
theorem pay1_le (v26 : FVec Ideal S1024x2048 .f32) (v39 : Vec Ideal S1x2048 .f32) (q : Fin 2048) (c : EReal) :
    c ≤ k0_pay1 (F := Ideal) v26 v39 (ix2 0 q) ↔ c ≤ v39 (ix2 0 q) ∧ ∀ r : Fin 1024, c ≤ v26 (ix2 r q) := by
  rw [pay1_eq, le_min_iff, Finset.le_fold_min]
  exact ⟨fun h => ⟨h.1, fun r => h.2.2 r (Finset.mem_univ r)⟩, fun h => ⟨h.1, le_top, fun r _ => h.2 r⟩⟩

/-- The running maximum carried on: the value carried in, against the largest of the row minima. -/
theorem pay2_eq (v53 : Vec Ideal S1024x1 .f32) (v56 : Vec Ideal S1x1 .f32) :
    k0_pay2 (F := Ideal) v53 v56 (ix2 0 0)
      = max (v56 (ix2 0 0)) ((Finset.univ : Finset (Fin 1024)).fold max ⊥ fun r => v53 (ix2 r 0)) := by
  unfold k0_pay2
  rw [shapeCast_self]
  refine congrArg (max (v56 (ix2 0 0))) ?_
  refine (shapeCast_a_1a_apply _ _ 0 0).trans ?_
  refine (colMax_apply _ _ _ _ _ 0).trans ?_
  show (Finset.univ : Finset (Fin 1024)).fold max (Ideal.ofBits .f32 0xFF800000#32) _ = _
  rw [ofBits_ninf]

/-- An upper bound of the carried-on maximum bounds the value carried in and every row minimum. -/
theorem pay2_le (v53 : Vec Ideal S1024x1 .f32) (v56 : Vec Ideal S1x1 .f32) (c : EReal) :
    k0_pay2 (F := Ideal) v53 v56 (ix2 0 0) ≤ c ↔ v56 (ix2 0 0) ≤ c ∧ ∀ r : Fin 1024, v53 (ix2 r 0) ≤ c := by
  rw [pay2_eq, max_le_iff, Finset.fold_max_le]
  exact ⟨fun h => ⟨h.1, fun r => h.2.2 r (Finset.mem_univ r)⟩, fun h => ⟨h.1, bot_le, fun r _ => h.2 r⟩⟩

/-! ## The square roots, read through the unit axes -/

/-- The first output: the root of the running maximum. -/
theorem pay3_apply (v53 : Vec Ideal S1x1 .f32) (l : Fin 128) :
    k0_pay3 (F := Ideal) v53 (ix3 0 0 l) = Ideal.sqrt (v53 (ix2 0 0)) := by
  unfold k0_pay3
  exact sqrt_lanes_apply v53 _ _ _ l

/-- The second output: the root of the largest column minimum. -/
theorem pay4_apply (v55 : Vec Ideal S1x4096 .f32) (l : Fin 128) :
    k0_pay4 (F := Ideal) v55 (ix3 0 0 l) = Ideal.sqrt ((Finset.univ : Finset (Fin 4096)).fold max ⊥ fun q => v55 (ix2 0 q)) := by
  unfold k0_pay4
  refine (sqrt_lanes_apply _ _ _ _ l).trans (congrArg Ideal.sqrt ?_)
  refine (shapeCast_a_1a_apply _ _ 0 0).trans ?_
  refine (RowReduce.rowMax_apply _ _ _ _ _ 0).trans ?_
  show (Finset.univ : Finset (Fin 4096)).fold max (Ideal.ofBits .f32 0xFF800000#32) _ = _
  rw [ofBits_ninf]

/-! ## The squared distances -/

/-- The squared distance of row point `r` and column point `q`: the two squared norms added, twice the inner product taken
    away, clamped at zero. -/
theorem pay8_apply (x0 : Vec Ideal S1x1024x3 .f32) (x1 : Vec Ideal S1x3x2048 .f32) (r : Fin 1024) (q : Fin 2048) :
    k0_pay8 (F := Ideal) x0 x1 (ix2 r q)
      = max (((∑ k : Fin 3, x0 (ix3 0 r k) * x0 (ix3 0 r k)) + (∑ k : Fin 3, x1 (ix3 0 k q) * x1 (ix3 0 k q)))
              - Ideal.ofBits .f32 0x40000000#32 * (∑ k : Fin 3, x0 (ix3 0 r k) * x1 (ix3 0 k q)))
            (Ideal.ofBits .f32 0x00000000#32) := by
  have e0 : ∀ k : Fin 3, shapeCast S1024x3 x0 shapeCasts_S1x1024x3_S1024x3 (ix2 r k) = x0 (ix3 0 r k) :=
    fun k => shapeCast_1ab_ab_apply x0 _ r k
  have e1 : ∀ k : Fin 3, shapeCast S3x2048 x1 shapeCasts_S1x3x2048_S3x2048 (ix2 k q) = x1 (ix3 0 k q) :=
    fun k => shapeCast_1ab_ab_apply x1 _ k q
  unfold k0_pay8
  refine (maximumf_apply _ _ _).trans ?_
  refine congrArg₂ max ?_ rfl
  refine (subf_apply _ _ _).trans ?_
  refine congrArg₂ (· - ·) ?_ ?_
  · refine (addf_apply _ _ _).trans ?_
    refine congrArg₂ (· + ·) ?_ ?_
    · -- the row point's squared norm, kept as a column and spread along the row
      refine (RowReduce.keepdims_apply _ _ _ r q).trans ?_
      refine (RowReduce.rowSum_apply _ _ _ _ _ r).trans ?_
      refine Finset.sum_congr rfl fun k _ => ?_
      refine (mulf_apply _ _ _).trans ?_
      exact congrArg₂ (· * ·) (e0 k) (e0 k)
    · -- the column point's squared norm, kept as a row and spread down the column
      refine (broadcastTo_1b_ab_apply _ _ r q).trans ?_
      refine (shapeCast_a_1a_apply _ _ 0 q).trans ?_
      refine (colSum_apply _ _ _ _ _ q).trans ?_
      refine Finset.sum_congr rfl fun k _ => ?_
      refine (mulf_apply _ _ _).trans ?_
      exact congrArg₂ (· * ·) (e1 k) (e1 k)
  · -- twice the inner product
    refine (mulf_apply _ _ _).trans ?_
    refine congrArg₂ (· * ·) rfl ?_
    refine (matmul_zero_apply _ _ _ _ r q).trans ?_
    exact Finset.sum_congr rfl fun k _ => congrArg₂ (· * ·) (e0 k) (e1 k)

end Cert.KernelIdeal.Pay

end
-- ==== Proof.Blocks.lean ====
/-
  The kernel's two input blocks at a grid point, read at an index, as entries of the two argument arrays.

  The grid has 4 × 4 × 2 = 32 points; point t has batch t / 8, row tile (t mod 8) / 2 and column tile t mod 2. The first
  window cuts the first array [4, 4096, 3] into blocks [1, 1024, 3] at block index (batch, row tile, 0); the second window
  cuts the transposed second array [4, 3, 4096] into blocks [1, 3, 2048] at block index (batch, 0, column tile). A block's
  coordinate on an axis is its index there times the block's extent plus the coordinate inside the block.
-/
import proofs.«152502_j46377056862526_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

set_option maxRecDepth 16384

noncomputable section

namespace Cert.KernelIdeal.Blocks

open Cert.KernelIdeal Cert.KernelIdeal.Gen Idealize.ShloMosaic Idealize.ShloMosaic.ValueIdx Idealize.ShloMosaic.TcCoe

variable (m : (ℓ : Loc nD τ sig) → Buf (Elt Ideal) ℓ)

/-- The grid has 32 points. -/
theorem t_lt (t : Fin cfg0.N) : t.val < 32 := lt_of_lt_of_eq t.isLt N_0

/-- The first window's block index at point t: (t / 8, (t mod 8) / 2, 0), decided over the grid. -/
theorem idx0 : ∀ t : Fin cfg0.N, win0_0.index t (0 : Fin 3) = t.val / 8 ∧ win0_0.index t (1 : Fin 3) = t.val % 8 / 2
    ∧ win0_0.index t (2 : Fin 3) = 0 :=
  (by decide +kernel : ∀ t : Fin grid0.N, win0_0.index t (0 : Fin 3) = t.val / 8 ∧ win0_0.index t (1 : Fin 3) = t.val % 8 / 2
    ∧ win0_0.index t (2 : Fin 3) = 0)

/-- The second window's block index at point t: (t / 8, 0, t mod 2), decided over the grid. -/
theorem idx1 : ∀ t : Fin cfg0.N, win0_1.index t (0 : Fin 3) = t.val / 8 ∧ win0_1.index t (1 : Fin 3) = 0
    ∧ win0_1.index t (2 : Fin 3) = t.val % 2 :=
  (by decide +kernel : ∀ t : Fin grid0.N, win0_1.index t (0 : Fin 3) = t.val / 8 ∧ win0_1.index t (1 : Fin 3) = 0
    ∧ win0_1.index t (2 : Fin 3) = t.val % 2)

/-- The first block at point t, at row r and coordinate k, is the first argument at batch t / 8, point
    1024 · ((t mod 8) / 2) + r, coordinate k. -/
theorem blk0_apply (c : Dev nD) (t : Fin cfg0.N) (r : Fin 1024) (k : Fin 3) :
    iblk m c 0 t (ix3 0 r k) = m ((c : Thread nD τ).loc main_arg0)
      (ix3 ⟨t.val / 8, by have := t_lt t; omega⟩ ⟨1024 * (t.val % 8 / 2) + r.val, by have := t_lt t; have := r.isLt; omega⟩ k) := by
  obtain ⟨e0, e1, e2⟩ := idx0 t
  rw [← V_main_arg0 m c]
  show V m c main_arg0 (((cfg0.win 0).blk t).view.emb (ix3 0 r k)) = V m c main_arg0 _
  refine congrArg (V m c main_arg0) (funext fun a => Fin.ext ?_)
  match a with
  | ⟨0, _⟩ => show win0_0.index t (0 : Fin 3) * 1 + 1 * 0 = t.val / 8; omega
  | ⟨1, _⟩ => show win0_0.index t (1 : Fin 3) * 1024 + 1 * r.val = 1024 * (t.val % 8 / 2) + r.val; omega
  | ⟨2, _⟩ => show win0_0.index t (2 : Fin 3) * 3 + 1 * k.val = k.val; omega

/-- The second window's array when the region is entered: the second argument with its last two axes swapped (the one
    host operation before the region). -/
theorem V_main_v0 (c : Dev nD) : (V m c main_v0 : S4x3x4096.Idx → EReal)
    = transpose S4x3x4096 [0, 2, 1] (m ((c : Thread nD τ).loc main_arg1) : S4x4096x3.Idx → EReal) transposes_S4x4096x3_S4x3x4096_0_2_1 := by
  dsimp only [Gen.V, Gen.V0]
  simp only [Gen.hostOps0, List.flatten_cons, List.flatten_nil, List.append_nil]
  after_results

/-- The second block at point t, at coordinate k and column q, is the second argument at batch t / 8, point
    2048 · (t mod 2) + q, coordinate k. -/
theorem blk1_apply (c : Dev nD) (t : Fin cfg0.N) (k : Fin 3) (q : Fin 2048) :
    iblk m c 1 t (ix3 0 k q) = m ((c : Thread nD τ).loc main_arg1)
      (ix3 ⟨t.val / 8, by have := t_lt t; omega⟩ ⟨2048 * (t.val % 2) + q.val, by have := t_lt t; have := q.isLt; omega⟩ k) := by
  obtain ⟨e0, e1, e2⟩ := idx1 t
  have hq := q.isLt
  have ht := t_lt t
  show (V m c main_v0 : S4x3x4096.Idx → EReal) (((cfg0.win 1).blk t).view.emb (ix3 0 k q)) = _
  rw [V_main_v0 m c]
  have hidx : ((cfg0.win 1).blk t).view.emb (ix3 0 k q)
      = (ix3 (⟨t.val / 8, by omega⟩ : Fin 4) k (⟨2048 * (t.val % 2) + q.val, by omega⟩ : Fin 4096) : S4x3x4096.Idx) := by
    funext a; apply Fin.ext
    match a with
    | ⟨0, _⟩ => show win0_1.index t (0 : Fin 3) * 1 + 1 * 0 = t.val / 8; omega
    | ⟨1, _⟩ => show win0_1.index t (1 : Fin 3) * 3 + 1 * k.val = k.val; omega
    | ⟨2, _⟩ => show win0_1.index t (2 : Fin 3) * 2048 + 1 * q.val = 2048 * (t.val % 2) + q.val; omega
  rw [hidx]
  exact transpose_ix3_021_apply _ _ _ _ _

end Cert.KernelIdeal.Blocks

end
-- ==== Proof.Tile.lean ====
/-
  One entry of the tile of squared distances the kernel forms at a grid point, as the squared distance — in the
  kernel's expanded and clamped form — of two points of the two argument sets: row r of the point's row tile is point
  1024 · ((t mod 8) / 2) + r of the first set, column q of its column tile is point 2048 · (t mod 2) + q of the second,
  both in batch t / 8.
-/
import proofs.«152502_j46377056862526_2_alg».proof.Proof.Payloads
import proofs.«152502_j46377056862526_2_alg».proof.Proof.Blocks
import proofs.«152502_j46377056862526_2_alg».proof.Proof.HausMath

set_option maxRecDepth 16384

noncomputable section

namespace Cert.KernelIdeal.Tile

open Cert.KernelIdeal Cert.KernelIdeal.Gen Idealize.ShloMosaic Idealize.ShloMosaic.ValueIdx Idealize.ShloMosaic.TcCoe

variable (m : (ℓ : Loc nD τ sig) → Buf (Elt Ideal) ℓ)

/-- The point's batch, as an index. -/
def bOf (t : Fin cfg0.N) : Fin 4 := ⟨t.val / 8, by have := Blocks.t_lt t; omega⟩

/-- The two point sets of device c. -/
def P (c : Dev nD) : Hausdorff.Pts := Hausdorff.ptsOf (m ((c : Thread nD τ).loc main_arg0))
def L (c : Dev nD) : Hausdorff.Pts := Hausdorff.ptsOf (m ((c : Thread nD τ).loc main_arg1))

/-- The point a row of the tile stands for is one of the 4096. -/
theorem row_lt (t : Fin cfg0.N) (r : Fin 1024) : 1024 * (t.val % 8 / 2) + r.val < 4096 := by
  have := Blocks.t_lt t; have := r.isLt; omega
/-- The point a column of the tile stands for is one of the 4096. -/
theorem col_lt (t : Fin cfg0.N) (q : Fin 2048) : 2048 * (t.val % 2) + q.val < 4096 := by
  have := Blocks.t_lt t; have := q.isLt; omega

/-- The tile's entry at row r and column q is the expanded, clamped squared distance of the two points it stands for. -/
theorem tile_apply (c : Dev nD) (t : Fin cfg0.N) (r : Fin 1024) (q : Fin 2048) (n q' : Fin 4096)
    (hn : n.val = 1024 * (t.val % 8 / 2) + r.val) (hq : q'.val = 2048 * (t.val % 2) + q.val) :
    k0_pay8 (F := Ideal) (iblk m c 0 t) (iblk m c 1 t) (ix2 r q) = Hausdorff.sqK (P m c) (L m c) (bOf t) n q' := by
  obtain rfl : n = ⟨1024 * (t.val % 8 / 2) + r.val, row_lt t r⟩ := Fin.ext hn
  obtain rfl : q' = ⟨2048 * (t.val % 2) + q.val, col_lt t q⟩ := Fin.ext hq
  refine (Pay.pay8_apply (iblk m c 0 t) (iblk m c 1 t) r q).trans ?_
  simp only [Blocks.blk0_apply m c t, Blocks.blk1_apply m c t, Hausdorff.lit_two, Hausdorff.lit_zero]
  rfl

end Cert.KernelIdeal.Tile

end
-- ==== Proof.InvDef.lean ====
/-
  The running buffers hold, after every grid point, the minima and maxima of the squared distances seen so far.

  Point `t = 8·b + 2·i + j` handles batch `b`, rows `1024·i … 1024·i + 1023` of the first set and columns
  `2048·j … 2048·j + 2047` of the second. After it: column `q` of the row of column minima is the least squared distance
  from `q` to the first `1024·(i+1)` points (columns of tiles up to `j`) or `1024·i` points (later columns); entry `r` of
  the column of row minima is the least squared distance from point `1024·i + r` to the first `2048·(j+1)` points of the
  second set; the running maximum is the largest complete row minimum over the first `1024·(i+j)` points. Every minimum
  and maximum is carried by its universal property (the lower, resp. upper, bounds it has).
-/
import proofs.«152502_j46377056862526_2_alg».proof.Proof.State
import proofs.«152502_j46377056862526_2_alg».proof.Proof.Payloads
import proofs.«152502_j46377056862526_2_alg».proof.Proof.Tile

set_option maxRecDepth 16384

noncomputable section

namespace Cert.KernelIdeal.Inv

open Cert.KernelIdeal Cert.KernelIdeal.Gen Cert.KernelIdeal.Pieces Cert.KernelIdeal.State Cert.KernelIdeal.Pay
open Cert.KernelIdeal.Tile
open Idealize.ShloMosaic Idealize.ShloMosaic.TcCoe Idealize.ShloMosaic.ValueIdx
open Hausdorff

variable (m : (ℓ : Loc nD τ sig) → Buf (Elt Ideal) ℓ)

theorem t_lt (t : Fin cfg0.N) : t.val < 32 := lt_of_lt_of_eq t.isLt (show cfg0.N = 32 from N_0)

/-! ## The tile's columns -/

/-- The tile of point `t` starts at column `2048·(t mod 2)`. -/
theorem off1 : ∀ t : Fin cfg0.N, k0_off1 (grid0.coords t) = ![0, 2048 * (t.val % 2)] :=
  (by decide +kernel : ∀ t : Fin grid0.N, k0_off1 (grid0.coords t) = ![0, 2048 * (t.val % 2)])

theorem colRect_emb (t : Fin cfg0.N) (q' : Fin 2048) (q : Fin 4096) (hq : q.val = 2048 * (t.val % 2) + q'.val) :
    (colRect (grid0.coords t)).emb (ix2 (0 : Fin 1) q') = ix2 (0 : Fin 1) q := by
  funext a
  apply Fin.ext
  rw [Rect.emb_apply]
  show k0_off1 (grid0.coords t) a + 1 * _ = _
  rw [off1 t]
  match a with
  | ⟨0, _⟩ => rfl
  | ⟨1, _⟩ => show 2048 * (t.val % 2) + 1 * q'.val = q.val; omega

theorem colRect_mem (t : Fin cfg0.N) (q : Fin 4096) :
    ix2 (0 : Fin 1) q ∈ (colRect (grid0.coords t)).set ↔ 2048 * (t.val % 2) ≤ q.val ∧ q.val < 2048 * (t.val % 2) + 2048 := by
  rw [Rect.mem_set_unit, off1 t]
  constructor
  · intro h; exact h ⟨1, by decide⟩
  · intro h a
    match a with
    | ⟨0, _⟩ => exact ⟨Nat.zero_le _, by show 0 < 0 + 1; omega⟩
    | ⟨1, _⟩ => exact h

/-! ## Bounds -/

/-- The least squared distance from point `n` of the first set to the second set (batch `b`). -/
def rowMin (c : Dev nD) (b : Fin 4) (n : Fin 4096) : EReal :=
  (Finset.univ : Finset (Fin 4096)).fold min ⊤ fun q => sqK (P m c) (L m c) b n q

/-- `e` is below the squared distances from the first `N` points of the first set to point `q` of the second. -/
def LBcol (c : Dev nD) (b : Fin 4) (q : Fin 4096) (N : Nat) (e : EReal) : Prop :=
  ∀ n : Fin 4096, n.val < N → e ≤ sqK (P m c) (L m c) b n q

/-- `e` is below the squared distances from point `n` of the first set to the first `N` points of the second. -/
def LBrow (c : Dev nD) (b : Fin 4) (n : Fin 4096) (N : Nat) (e : EReal) : Prop :=
  ∀ q : Fin 4096, q.val < N → e ≤ sqK (P m c) (L m c) b n q

/-- `e` is above the row minima of the first `N` points of the first set. -/
def UBacc (c : Dev nD) (b : Fin 4) (N : Nat) (e : EReal) : Prop :=
  ∀ n : Fin 4096, n.val < N → rowMin m c b n ≤ e

/-- The row of column minima after row tile `i`, column tile `j` of batch `b`. -/
def ColsAt (c : Dev nD) (S0 : Vec Ideal S1x4096 .f32) (b : Fin 4) (i j : Nat) : Prop :=
  ∀ (q : Fin 4096) (e : EReal), e ≤ S0 (ix2 0 q) ↔ LBcol m c b q (1024 * (if q.val < 2048 * (j + 1) then i + 1 else i)) e

/-- The column of row minima after row tile `i`, column tile `j` of batch `b`. -/
def RowsAt (c : Dev nD) (S1 : Vec Ideal S1024x1 .f32) (b : Fin 4) (i j : Nat) : Prop :=
  ∀ (r : Fin 1024) (n : Fin 4096), n.val = 1024 * i + r.val → ∀ e : EReal, e ≤ S1 (ix2 r 0) ↔ LBrow m c b n (2048 * (j + 1)) e

/-- The running maximum after row tile `i`, column tile `j` of batch `b`. -/
def AccAt (c : Dev nD) (S2 : Vec Ideal S1x1 .f32) (b : Fin 4) (i j : Nat) : Prop :=
  ∀ e : EReal, S2 (ix2 0 0) ≤ e ↔ UBacc m c b (1024 * (i + j)) e

theorem LBcol_succ (c : Dev nD) (b : Fin 4) (q : Fin 4096) (i : Nat) (hi : 1024 * (i + 1) ≤ 4096) (e : EReal) :
    LBcol m c b q (1024 * (i + 1)) e ↔
      LBcol m c b q (1024 * i) e ∧ ∀ (r : Fin 1024) (n : Fin 4096), n.val = 1024 * i + r.val → e ≤ sqK (P m c) (L m c) b n q := by
  constructor
  · intro h
    exact ⟨fun n hn => h n (by omega), fun r n hn => h n (by have := r.isLt; omega)⟩
  · rintro ⟨h1, h2⟩ n hn
    by_cases hlt : n.val < 1024 * i
    · exact h1 n hlt
    · exact h2 ⟨n.val - 1024 * i, by omega⟩ n (by show n.val = 1024 * i + (n.val - 1024 * i); omega)

theorem LBrow_succ (c : Dev nD) (b : Fin 4) (n : Fin 4096) (j : Nat) (hj : 2048 * (j + 1) ≤ 4096) (e : EReal) :
    LBrow m c b n (2048 * (j + 1)) e ↔
      LBrow m c b n (2048 * j) e ∧ ∀ (q' : Fin 2048) (q : Fin 4096), q.val = 2048 * j + q'.val → e ≤ sqK (P m c) (L m c) b n q := by
  constructor
  · intro h
    exact ⟨fun q hq => h q (by omega), fun q' q hq => h q (by have := q'.isLt; omega)⟩
  · rintro ⟨h1, h2⟩ q hq
    by_cases hlt : q.val < 2048 * j
    · exact h1 q hlt
    · exact h2 ⟨q.val - 2048 * j, by omega⟩ q (by show q.val = 2048 * j + (q.val - 2048 * j); omega)

theorem UBacc_succ (c : Dev nD) (b : Fin 4) (i : Nat) (hi : 1024 * (i + 1) ≤ 4096) (e : EReal) :
    UBacc m c b (1024 * (i + 1)) e ↔
      UBacc m c b (1024 * i) e ∧ ∀ (r : Fin 1024) (n : Fin 4096), n.val = 1024 * i + r.val → rowMin m c b n ≤ e := by
  constructor
  · intro h
    exact ⟨fun n hn => h n (by omega), fun r n hn => h n (by have := r.isLt; omega)⟩
  · rintro ⟨h1, h2⟩ n hn
    by_cases hlt : n.val < 1024 * i
    · exact h1 n hlt
    · exact h2 ⟨n.val - 1024 * i, by omega⟩ n (by show n.val = 1024 * i + (n.val - 1024 * i); omega)

/-- A complete row minimum is the row's minimum. -/
theorem le_rowMin (c : Dev nD) (b : Fin 4) (n : Fin 4096) (e : EReal) : e ≤ rowMin m c b n ↔ LBrow m c b n 4096 e := by
  unfold rowMin LBrow
  rw [Finset.le_fold_min]
  exact ⟨fun h q _ => h.2 q (Finset.mem_univ q), fun h => ⟨le_top, fun q _ => h q q.isLt⟩⟩

/-! ## The tile's entries are the squared distances of its rows and columns -/

theorem tile_rows (c : Dev nD) (t : Fin cfg0.N) (q' : Fin 2048) (q : Fin 4096) (hq : q.val = 2048 * (t.val % 2) + q'.val) (e : EReal) :
    (∀ r : Fin 1024, e ≤ tile m c t (ix2 r q')) ↔
      ∀ (r : Fin 1024) (n : Fin 4096), n.val = 1024 * (t.val % 8 / 2) + r.val → e ≤ sqK (P m c) (L m c) (bOf t) n q := by
  constructor
  · intro h r n hn
    rw [← tile_apply m c t r q' n q hn hq]; exact h r
  · intro h r
    rw [show tile m c t (ix2 r q') = _ from tile_apply m c t r q' ⟨_, row_lt t r⟩ q rfl hq]
    exact h r _ rfl

theorem tile_cols (c : Dev nD) (t : Fin cfg0.N) (r : Fin 1024) (n : Fin 4096) (hn : n.val = 1024 * (t.val % 8 / 2) + r.val) (e : EReal) :
    (∀ q' : Fin 2048, e ≤ tile m c t (ix2 r q')) ↔
      ∀ (q' : Fin 2048) (q : Fin 4096), q.val = 2048 * (t.val % 2) + q'.val → e ≤ sqK (P m c) (L m c) (bOf t) n q := by
  constructor
  · intro h q' q hq
    rw [← tile_apply m c t r q' n q hn hq]; exact h q'
  · intro h q'
    rw [show tile m c t (ix2 r q') = _ from tile_apply m c t r q' n ⟨_, col_lt t q'⟩ hn rfl]
    exact h q' _ rfl

end Cert.KernelIdeal.Inv

end
-- ==== Proof.InvRows.lean ====
/-
  The column of row minima, step by step: a tile extends each of its 1024 rows' minimum by the tile's 2048 columns.
-/
import proofs.«152502_j46377056862526_2_alg».proof.Proof.InvDef

set_option maxRecDepth 16384

noncomputable section

namespace Cert.KernelIdeal.Inv

open Cert.KernelIdeal Cert.KernelIdeal.Gen Cert.KernelIdeal.Pieces Cert.KernelIdeal.State Cert.KernelIdeal.Pay
open Cert.KernelIdeal.Tile
open Idealize.ShloMosaic Idealize.ShloMosaic.TcCoe Idealize.ShloMosaic.ValueIdx
open Hausdorff

variable (m : (ℓ : Loc nD τ sig) → Buf (Elt Ideal) ℓ)

/-- One tile: the new row minima are the old ones lowered by the tile's entries, so they bound 2048 more columns. -/
theorem rows_step (c : Dev nD) (t : Fin cfg0.N) (b : Fin 4) (i j : Nat) (hb : bOf t = b) (hi : t.val % 8 / 2 = i) (hj : t.val % 2 = j)
    (S1 old : Vec Ideal S1024x1 .f32) (hS : S1 = k0_pay9 (F := Ideal) (iblk m c 0 t) (iblk m c 1 t) old)
    (hold : ∀ (r : Fin 1024) (n : Fin 4096), n.val = 1024 * i + r.val → ∀ e : EReal, e ≤ old (ix2 r 0) ↔ LBrow m c b n (2048 * j) e) :
    RowsAt m c S1 b i j := by
  intro r n hn e
  have hj2 : 2048 * (j + 1) ≤ 4096 := by have := t_lt t; omega
  rw [hS, pay9_le, hold r n hn e, LBrow_succ m c b n j hj2 e, tile_cols m c t r n (by rw [hi]; exact hn) e, hb, hj]

/-- The first tile of a row starts from +∞. -/
theorem rows_first (c : Dev nD) (t : Fin cfg0.N) (b : Fin 4) (i : Nat) (hb : bOf t = b) (hi : t.val % 8 / 2 = i) (hj : t.val % 2 = 0)
    (S1 : Vec Ideal S1024x1 .f32) (hS : S1 = k0_pay9 (F := Ideal) (iblk m c 0 t) (iblk m c 1 t) (k0_pay7 (F := Ideal))) :
    RowsAt m c S1 b i 0 :=
  rows_step m c t b i 0 hb hi hj S1 _ hS fun r n _ e => by
    rw [pay7_apply]
    exact ⟨fun _ q hq => absurd hq (by omega), fun _ => le_top⟩

end Cert.KernelIdeal.Inv

end
-- ==== Proof.InvAcc.lean ====
/-
  The running maximum, step by step, and the two outputs at a batch's last point.

  The running maximum starts a batch at −∞, which bounds nothing from above; it is untouched at a row's first tile; at a
  row's last tile the row minima are complete (all 4096 columns seen), and taking the maximum with them extends the
  bound to 1024 more points. At the batch's last point the maximum ranges over all 4096 points — it is the largest least
  squared distance — and every column minimum has seen all 4096 rows; the outputs are the square roots of the two.
-/
import proofs.«152502_j46377056862526_2_alg».proof.Proof.InvDef

set_option maxRecDepth 16384

noncomputable section

namespace Cert.KernelIdeal.Inv

open Cert.KernelIdeal Cert.KernelIdeal.Gen Cert.KernelIdeal.Pieces Cert.KernelIdeal.State Cert.KernelIdeal.Pay
open Cert.KernelIdeal.Tile
open Idealize.ShloMosaic Idealize.ShloMosaic.TcCoe Idealize.ShloMosaic.ValueIdx
open Hausdorff

variable (m : (ℓ : Loc nD τ sig) → Buf (Elt Ideal) ℓ)

/-! ## Steps over any buffers -/

/-- A complete entry of the column of row minima is the row's minimum. -/
theorem rows_complete (c : Dev nD) (b : Fin 4) (i : Nat) (R : Vec Ideal S1024x1 .f32) (hr : RowsAt m c R b i 1)
    (r : Fin 1024) (n : Fin 4096) (hn : n.val = 1024 * i + r.val) : R (ix2 r 0) = rowMin m c b n := by
  apply eq_of_forall_le_iff
  intro e
  rw [hr r n hn e, le_rowMin]

/-- Taking the maximum with a row tile's complete row minima extends the bound by that tile's 1024 points. -/
theorem acc_step (c : Dev nD) (b : Fin 4) (i : Nat) (hi : 1024 * (i + 1) ≤ 4096) (R : Vec Ideal S1024x1 .f32)
    (A : Vec Ideal S1x1 .f32) (hp : AccAt m c A b i 0) (hr : RowsAt m c R b i 1) :
    AccAt m c (k0_pay2 (F := Ideal) R A) b i 1 := by
  unfold AccAt at hp ⊢
  intro e
  rw [pay2_le R A e, hp e, UBacc_succ m c b i hi e]
  constructor
  · rintro ⟨h1, h2⟩
    exact ⟨h1, fun r n hn => (rows_complete m c b i R hr r n hn) ▸ h2 r⟩
  · rintro ⟨h1, h2⟩
    refine ⟨h1, fun r => ?_⟩
    have hlt : 1024 * i + r.val < 4096 := by have := r.isLt; omega
    rw [rows_complete m c b i R hr r ⟨1024 * i + r.val, hlt⟩ rfl]
    exact h2 r _ rfl

/-- With all 4096 points bounded, the running maximum is the largest least squared distance; the first output is its root. -/
theorem out2_of_acc (c : Dev nD) (b : Fin 4) (A : Vec Ideal S1x1 .f32) (ha : AccAt m c A b 3 1) (l : Fin 128) :
    k0_pay3 (F := Ideal) A (ix3 0 0 l) = Ideal.sqrt (sqXY (P m c) (L m c) b) := by
  unfold AccAt at ha
  rw [pay3_apply A l]
  refine congrArg Ideal.sqrt ?_
  unfold sqXY
  apply eq_of_forall_ge_iff
  intro e
  rw [ha e, Finset.fold_max_le]
  constructor
  · intro h
    exact ⟨bot_le, fun n _ => h n (by have := n.isLt; omega)⟩
  · rintro ⟨_, h⟩ n _
    exact h n (Finset.mem_univ n)

/-- With every column minimum over all 4096 rows, the second output is the root of the largest of them. -/
theorem out3_of_cols (c : Dev nD) (b : Fin 4) (S0 : Vec Ideal S1x4096 .f32) (hc : ColsAt m c S0 b 3 1) (l : Fin 128) :
    k0_pay4 (F := Ideal) S0 (ix3 0 0 l) = Ideal.sqrt (sqYX (P m c) (L m c) b) := by
  unfold ColsAt at hc
  rw [pay4_apply S0 l]
  refine congrArg Ideal.sqrt ?_
  unfold sqYX
  refine Finset.fold_congr fun q _ => ?_
  apply eq_of_forall_le_iff
  intro e
  have hq : q.val < 2048 * (1 + 1) := by have := q.isLt; omega
  rw [hc q e, if_pos hq, Finset.le_fold_min]
  constructor
  · intro h
    exact ⟨le_top, fun n _ => h n (by have := n.isLt; omega)⟩
  · rintro ⟨_, h⟩ n _
    exact h n (Finset.mem_univ n)

/-! ## At the grid's points -/

theorem acc_first (c : Dev nD) (t : Fin cfg0.N) (h0 : t.val % 8 = 0) (h1 : t.val % 2 = 0) (h2 : ¬t.val % 2 = 1) (h3 : ¬t.val % 8 = 7) :
    AccAt m c (outsAt0 m c t.val t.isLt).2.2.2.2 (bOf t) 0 0 := by
  rw [State.acc_A m c t h0 h1 h2 h3]
  unfold AccAt
  intro e
  rw [pay5_apply]
  constructor
  · intro _ n hn
    exact absurd hn (by omega)
  · intro _
    exact bot_le

theorem acc_keep (c : Dev nD) (t : Fin cfg0.N) (h0 : ¬t.val % 8 = 0) (h1 : t.val % 2 = 0) (h2 : ¬t.val % 2 = 1) (h3 : ¬t.val % 8 = 7) (b : Fin 4) (i : Nat)
    (hp : AccAt m c (State.prev m c t).2.2.2.2 b i 1) : AccAt m c (outsAt0 m c t.val t.isLt).2.2.2.2 b (i + 1) 0 := by
  rw [State.acc_C m c t h0 h1 h2 h3]
  unfold AccAt at hp ⊢
  intro e
  exact hp e

theorem acc_fold_B (c : Dev nD) (t : Fin cfg0.N) (h0 : ¬t.val % 8 = 0) (h1 : ¬t.val % 2 = 0) (h2 : t.val % 2 = 1) (h3 : ¬t.val % 8 = 7) (b : Fin 4) (i : Nat) (hi : 1024 * (i + 1) ≤ 4096)
    (hp : AccAt m c (State.prev m c t).2.2.2.2 b i 0) (hr : RowsAt m c (outsAt0 m c t.val t.isLt).2.2.2.1 b i 1) :
    AccAt m c (outsAt0 m c t.val t.isLt).2.2.2.2 b i 1 := by
  rw [State.rows_B m c t h0 h1 h2 h3] at hr
  rw [State.acc_B m c t h0 h1 h2 h3]
  exact acc_step m c b i hi (k0_pay9 (iblk m c 0 t) (iblk m c 1 t) (State.prev m c t).2.2.2.1) (State.prev m c t).2.2.2.2 hp hr

theorem acc_fold_D (c : Dev nD) (t : Fin cfg0.N) (h0 : ¬t.val % 8 = 0) (h1 : ¬t.val % 2 = 0) (h2 : t.val % 2 = 1) (h3 : t.val % 8 = 7) (b : Fin 4) (i : Nat) (hi : 1024 * (i + 1) ≤ 4096)
    (hp : AccAt m c (State.prev m c t).2.2.2.2 b i 0) (hr : RowsAt m c (outsAt0 m c t.val t.isLt).2.2.2.1 b i 1) :
    AccAt m c (outsAt0 m c t.val t.isLt).2.2.2.2 b i 1 := by
  rw [State.rows_D m c t h0 h1 h2 h3] at hr
  rw [State.acc_D m c t h0 h1 h2 h3]
  exact acc_step m c b i hi (k0_pay9 (iblk m c 0 t) (iblk m c 1 t) (State.prev m c t).2.2.2.1) (State.prev m c t).2.2.2.2 hp hr

theorem out2_last (c : Dev nD) (t : Fin cfg0.N) (h0 : ¬t.val % 8 = 0) (h1 : ¬t.val % 2 = 0) (h2 : t.val % 2 = 1) (h3 : t.val % 8 = 7) (b : Fin 4)
    (ha : AccAt m c (outsAt0 m c t.val t.isLt).2.2.2.2 b 3 1) (l : Fin 128) :
    (outsAt0 m c t.val t.isLt).1 (ix3 0 0 l) = Ideal.sqrt (Hausdorff.sqXY (P m c) (L m c) b) := by
  rw [State.acc_D m c t h0 h1 h2 h3] at ha
  rw [State.out2_D m c t h0 h1 h2 h3]
  exact out2_of_acc m c b (k0_pay2 (k0_pay9 (iblk m c 0 t) (iblk m c 1 t) (State.prev m c t).2.2.2.1) (State.prev m c t).2.2.2.2) ha l

theorem out3_last (c : Dev nD) (t : Fin cfg0.N) (h0 : ¬t.val % 8 = 0) (h1 : ¬t.val % 2 = 0) (h2 : t.val % 2 = 1) (h3 : t.val % 8 = 7) (b : Fin 4)
    (hc : ColsAt m c (outsAt0 m c t.val t.isLt).2.2.1 b 3 1) (l : Fin 128) :
    (outsAt0 m c t.val t.isLt).2.1 (ix3 0 0 l) = Ideal.sqrt (Hausdorff.sqYX (P m c) (L m c) b) := by
  rw [State.cols_D m c t h0 h1 h2 h3] at hc
  rw [State.out3_D m c t h0 h1 h2 h3]
  exact out3_of_cols m c b (colUpd scM0_0 (Memref.isWhole_whole _) (grid0.coords t) (State.prev m c t).2.2.1 (k0_pay1 (State.tile m c t) (View.ld (State.prev m c t).2.2.1 (colRect (grid0.coords t))))) hc l

end Cert.KernelIdeal.Inv

end
-- ==== Proof.InvCols.lean ====
/-
  The row of running column minima, step by step.

  After the tile of row tile `i` and column tile `j` of a batch, column `q` of the row holds the least squared distance from
  point `q` of the second set to the first `1024·(i+1)` points of the first set when `q` lies in a column tile up to `j`, and to
  the first `1024·i` points otherwise. A tile rewrites the 2048 columns of its column tile — each to the minimum of what
  the column held and of the tile's entries in that column — and keeps the others; the first tile of a batch starts
  every column at +∞. Each minimum is carried by its lower bounds.
-/
import proofs.«152502_j46377056862526_2_alg».proof.Proof.InvDef

set_option maxRecDepth 16384

noncomputable section

namespace Cert.KernelIdeal.Inv

open Cert.KernelIdeal Cert.KernelIdeal.Gen Cert.KernelIdeal.Pieces Cert.KernelIdeal.State Cert.KernelIdeal.Pay
open Cert.KernelIdeal.Tile
open Idealize.ShloMosaic Idealize.ShloMosaic.TcCoe Idealize.ShloMosaic.ValueIdx
open Hausdorff

variable (m : (ℓ : Loc nD τ sig) → Buf (Elt Ideal) ℓ)

/-! ## One tile's update of the row, over any tile and any row -/

/-- The update of the row `X` by a tile `T` whose column `q'` holds the squared distances from the points of row tile `i` to
    point `2048·j + q'` of the second set: if the columns left of the tile counted `i + 1` row tiles and the others `i`, then
    afterwards the tile's columns count `i + 1` too. -/
theorem cols_step_aux (c : Dev nD) (t : Fin cfg0.N) (b : Fin 4) (i j : Nat) (hi4 : i < 4) (hj : t.val % 2 = j)
    (T : FVec Ideal S1024x2048 .f32) (X : Vec Ideal S1x4096 .f32)
    (hT : ∀ (q' : Fin 2048) (q : Fin 4096), q.val = 2048 * j + q'.val → ∀ e : EReal,
      (∀ r : Fin 1024, e ≤ T (ix2 r q')) ↔
        ∀ (r : Fin 1024) (n : Fin 4096), n.val = 1024 * i + r.val → e ≤ sqK (P m c) (L m c) b n q)
    (hp : ∀ (q : Fin 4096) (e : EReal), e ≤ X (ix2 0 q) ↔ LBcol m c b q (1024 * (if q.val < 2048 * j then i + 1 else i)) e) :
    ColsAt m c (colUpd scM0_0 (Memref.isWhole_whole _) (grid0.coords t) X (k0_pay1 T (View.ld X (colRect (grid0.coords t))))) b i j := by
  have ht := t_lt t
  have hj2 : j < 2 := by omega
  unfold ColsAt
  intro q e
  have hq4 := q.isLt
  by_cases hin : 2048 * j ≤ q.val ∧ q.val < 2048 * j + 2048
  · -- a column of the tile: the minimum of what it held and of the tile's column
    obtain ⟨q', hq'⟩ : ∃ q' : Fin 2048, q.val = 2048 * j + q'.val :=
      ⟨⟨q.val - 2048 * j, by omega⟩, by show q.val = 2048 * j + (q.val - 2048 * j); omega⟩
    have hemb : (colRect (grid0.coords t)).emb (ix2 (0 : Fin 1) q') = ix2 (0 : Fin 1) q :=
      colRect_emb t q' q (by rw [hj]; exact hq')
    have hval : colUpd scM0_0 (Memref.isWhole_whole _) (grid0.coords t) X (k0_pay1 T (View.ld X (colRect (grid0.coords t)))) (ix2 0 q)
        = k0_pay1 T (View.ld X (colRect (grid0.coords t))) (ix2 0 q') := by
      rw [← hemb]
      exact colUpd_emb scM0_0 (Memref.isWhole_whole _) (grid0.coords t) X (k0_pay1 T (View.ld X (colRect (grid0.coords t)))) (ix2 (0 : Fin 1) q')
    have hold : View.ld X (colRect (grid0.coords t)) (ix2 (0 : Fin 1) q') = X (ix2 0 q) := congrArg X hemb
    rw [hval, pay1_le T (View.ld X (colRect (grid0.coords t))) q' e, hold, hp q e, hT q' q hq' e,
      if_neg (by omega : ¬ q.val < 2048 * j), if_pos (by omega : q.val < 2048 * (j + 1))]
    exact (LBcol_succ m c b q i (by omega) e).symm
  · have hnm : ix2 (0 : Fin 1) q ∉ (colRect (grid0.coords t)).set := by
      rw [colRect_mem t q, hj]; omega
    rw [colUpd_of_not_mem scM0_0 (Memref.isWhole_whole _) (grid0.coords t) X (k0_pay1 T (View.ld X (colRect (grid0.coords t)))) (ix2 0 q) hnm,
      hp q e]
    by_cases hl : q.val < 2048 * j
    · -- left of the tile: already counted
      rw [if_pos hl, if_pos (by omega : q.val < 2048 * (j + 1))]
    · -- right of the tile: not yet
      rw [if_neg hl, if_neg (by omega : ¬ q.val < 2048 * (j + 1))]

/-! ## The later tiles of a batch -/

/-- One statement for every tile but the first of a batch: the row after the tile, from what the row held before it. -/
theorem cols_step (c : Dev nD) (t : Fin cfg0.N) (b : Fin 4) (i j : Nat) (hb : bOf t = b) (hi : t.val % 8 / 2 = i) (hj : t.val % 2 = j)
    (S0 : Vec Ideal S1x4096 .f32) (hS : S0 = colUpd scM0_0 (Memref.isWhole_whole _) (grid0.coords t) (State.prev m c t).2.2.1
        (k0_pay1 (State.tile m c t) (View.ld (State.prev m c t).2.2.1 (colRect (grid0.coords t)))))
    (hp : ∀ (q : Fin 4096) (e : EReal), e ≤ (State.prev m c t).2.2.1 (ix2 0 q) ↔ LBcol m c b q (1024 * (if q.val < 2048 * j then i + 1 else i)) e) :
    ColsAt m c S0 b i j := by
  have ht := t_lt t
  subst hS hb hi hj
  exact cols_step_aux m c t (bOf t) (t.val % 8 / 2) (t.val % 2) (by omega) rfl (State.tile m c t) (State.prev m c t).2.2.1
    (fun q' q hq e => tile_rows m c t q' q hq e) hp

/-! ## The first tile of a batch -/

/-- The first tile starts every column at +∞: its own columns end at the least of the tile's first 1024 rows, the others
    stay at +∞, which bounds nothing. -/
theorem cols_first (c : Dev nD) (t : Fin cfg0.N) (h0 : t.val % 8 = 0) (h1 : t.val % 2 = 0) (h2 : ¬t.val % 2 = 1) (h3 : ¬t.val % 8 = 7) :
    ColsAt m c (outsAt0 m c t.val t.isLt).2.2.1 (bOf t) 0 0 := by
  have h8 : t.val % 8 / 2 = 0 := by omega
  unfold ColsAt
  intro q e
  by_cases hin : q.val < 2048
  · obtain ⟨q', hq'⟩ : ∃ q' : Fin 2048, q.val = 2048 * (t.val % 2) + q'.val :=
      ⟨⟨q.val, hin⟩, by show q.val = 2048 * (t.val % 2) + q.val; omega⟩
    have hemb : (colRect (grid0.coords t)).emb (ix2 (0 : Fin 1) q') = ix2 (0 : Fin 1) q := colRect_emb t q' q hq'
    have hval : (outsAt0 m c t.val t.isLt).2.2.1 (ix2 0 q)
        = k0_pay1 (State.tile m c t) (View.ld (k0_pay6 (F := Ideal)) (colRect (grid0.coords t))) (ix2 0 q') := by
      rw [← hemb]
      exact State.cols_A_emb m c t h0 h1 h2 h3 (ix2 (0 : Fin 1) q')
    have hold : (View.ld (k0_pay6 (F := Ideal)) (colRect (grid0.coords t)) : Vec Ideal S1x2048 .f32) (ix2 (0 : Fin 1) q') = ⊤ :=
      pay6_apply ((colRect (grid0.coords t)).emb (ix2 (0 : Fin 1) q'))
    rw [hval, pay1_le (State.tile m c t) (View.ld (k0_pay6 (F := Ideal)) (colRect (grid0.coords t))) q' e, hold,
      tile_rows m c t q' q hq' e, h8, if_pos (by omega : q.val < 2048 * (0 + 1)),
      LBcol_succ m c (bOf t) q 0 (by omega) e]
    exact ⟨fun h => ⟨fun n hn => absurd hn (by omega), h.2⟩, fun h => ⟨le_top, h.2⟩⟩
  · have hnm : ix2 (0 : Fin 1) q ∉ (colRect (grid0.coords t)).set := by
      rw [colRect_mem t q]; omega
    rw [State.cols_A_of_not_mem m c t h0 h1 h2 h3 (ix2 0 q) hnm, pay6_apply, if_neg (by omega : ¬ q.val < 2048 * (0 + 1))]
    exact ⟨fun _ n hn => absurd hn (by omega), fun _ => le_top⟩

/-! ## The three later cases -/

/-- The first tile of a later row: before it every column counted the rows up to the row before. -/
theorem cols_C' (c : Dev nD) (t : Fin cfg0.N) (h0 : ¬t.val % 8 = 0) (h1 : t.val % 2 = 0) (h2 : ¬t.val % 2 = 1) (h3 : ¬t.val % 8 = 7)
    (b : Fin 4) (i : Nat) (hb : bOf t = b) (hi : t.val % 8 / 2 = i + 1)
    (hp : ColsAt m c (State.prev m c t).2.2.1 b i 1) : ColsAt m c (outsAt0 m c t.val t.isLt).2.2.1 b (i + 1) 0 := by
  refine cols_step m c t b (i + 1) 0 hb hi h1 (outsAt0 m c t.val t.isLt).2.2.1 (State.cols_C m c t h0 h1 h2 h3) (fun q e => ?_)
  have hq4 := q.isLt
  rw [hp q e, if_pos (by omega : q.val < 2048 * (1 + 1)), if_neg (by omega : ¬ q.val < 2048 * 0)]

/-- The last tile of a row that is not the batch's last. -/
theorem cols_B' (c : Dev nD) (t : Fin cfg0.N) (h0 : ¬t.val % 8 = 0) (h1 : ¬t.val % 2 = 0) (h2 : t.val % 2 = 1) (h3 : ¬t.val % 8 = 7)
    (b : Fin 4) (i : Nat) (hb : bOf t = b) (hi : t.val % 8 / 2 = i)
    (hp : ColsAt m c (State.prev m c t).2.2.1 b i 0) : ColsAt m c (outsAt0 m c t.val t.isLt).2.2.1 b i 1 := by
  refine cols_step m c t b i 1 hb hi h2 (outsAt0 m c t.val t.isLt).2.2.1 (State.cols_B m c t h0 h1 h2 h3) (fun q e => ?_)
  exact hp q e

/-- The last tile of a batch. -/
theorem cols_D' (c : Dev nD) (t : Fin cfg0.N) (h0 : ¬t.val % 8 = 0) (h1 : ¬t.val % 2 = 0) (h2 : t.val % 2 = 1) (h3 : t.val % 8 = 7)
    (b : Fin 4) (i : Nat) (hb : bOf t = b) (hi : t.val % 8 / 2 = i)
    (hp : ColsAt m c (State.prev m c t).2.2.1 b i 0) : ColsAt m c (outsAt0 m c t.val t.isLt).2.2.1 b i 1 := by
  refine cols_step m c t b i 1 hb hi h2 (outsAt0 m c t.val t.isLt).2.2.1 (State.cols_D m c t h0 h1 h2 h3) (fun q e => ?_)
  exact hp q e

end Cert.KernelIdeal.Inv

end
-- ==== Proof.Invariant.lean ====
/-
  The invariant of the three running buffers holds after every grid point, by induction on the point; at the last
  point of a batch the two outputs are therefore the roots of the batch's two directed squared distances.
-/
import proofs.«152502_j46377056862526_2_alg».proof.Proof.InvRows
import proofs.«152502_j46377056862526_2_alg».proof.Proof.InvAcc
import proofs.«152502_j46377056862526_2_alg».proof.Proof.InvCols

set_option maxRecDepth 16384

noncomputable section

namespace Cert.KernelIdeal.Inv

open Cert.KernelIdeal Cert.KernelIdeal.Gen Cert.KernelIdeal.Pieces Cert.KernelIdeal.State Cert.KernelIdeal.Pay
open Cert.KernelIdeal.Tile
open Idealize.ShloMosaic Idealize.ShloMosaic.TcCoe Idealize.ShloMosaic.ValueIdx
open Hausdorff

variable (m : (ℓ : Loc nD τ sig) → Buf (Elt Ideal) ℓ)

/-- After point `n` = 8·b + 2·i + j the three running buffers hold what `ColsAt`, `RowsAt`, `AccAt` say at (b, i, j). -/
theorem inv_all (c : Dev nD) : ∀ (n : ℕ) (hn : n < cfg0.N) (b : Fin 4) (i j : ℕ), b.val = n / 8 → i = n % 8 / 2 → j = n % 2 →
    ColsAt m c (outsAt0 m c n hn).2.2.1 b i j ∧ RowsAt m c (outsAt0 m c n hn).2.2.2.1 b i j
      ∧ AccAt m c (outsAt0 m c n hn).2.2.2.2 b i j
  | 0, hn, b, i, j, hb, hi, hj => by
    obtain rfl : i = 0 := by omega
    obtain rfl : j = 0 := by omega
    have hbt : bOf (⟨0, hn⟩ : Fin cfg0.N) = b := Fin.ext (by show 0 / 8 = b.val; omega)
    have h0 : (0 : ℕ) % 8 = 0 := rfl
    have h1 : (0 : ℕ) % 2 = 0 := rfl
    have h2 : ¬(0 : ℕ) % 2 = 1 := by decide
    have h3 : ¬(0 : ℕ) % 8 = 7 := by decide
    have hi0 : (0 : ℕ) % 8 / 2 = 0 := rfl
    exact ⟨hbt ▸ cols_first m c ⟨0, hn⟩ h0 h1 h2 h3,
      rows_first m c ⟨0, hn⟩ b 0 hbt hi0 h1 _ (State.rows_A m c ⟨0, hn⟩ h0 h1 h2 h3),
      hbt ▸ acc_first m c ⟨0, hn⟩ h0 h1 h2 h3⟩
  | n + 1, hn, b, i, j, hb, hi, hj => by
    have hN : n + 1 < 32 := lt_of_lt_of_eq hn (show cfg0.N = 32 from N_0)
    have hbt : bOf (⟨n + 1, hn⟩ : Fin cfg0.N) = b := Fin.ext (by show (n + 1) / 8 = b.val; omega)
    by_cases h0 : (n + 1) % 8 = 0
    · obtain rfl : i = 0 := by omega
      obtain rfl : j = 0 := by omega
      have h1 : (n + 1) % 2 = 0 := by omega
      have h2 : ¬(n + 1) % 2 = 1 := by omega
      have h3 : ¬(n + 1) % 8 = 7 := by omega
      exact ⟨hbt ▸ cols_first m c ⟨n + 1, hn⟩ h0 h1 h2 h3,
        rows_first m c ⟨n + 1, hn⟩ b 0 hbt (by show (n + 1) % 8 / 2 = 0; omega) h1 _ (State.rows_A m c ⟨n + 1, hn⟩ h0 h1 h2 h3),
        hbt ▸ acc_first m c ⟨n + 1, hn⟩ h0 h1 h2 h3⟩
    · have ih := inv_all c n (Nat.lt_of_succ_lt hn) b
      by_cases h1 : (n + 1) % 2 = 0
      · have h2 : ¬(n + 1) % 2 = 1 := by omega
        have h3 : ¬(n + 1) % 8 = 7 := by omega
        obtain rfl : j = 0 := by omega
        obtain ⟨i', rfl⟩ : ∃ i', i = i' + 1 := ⟨i - 1, by omega⟩
        obtain ⟨hc, hr, ha⟩ := ih i' 1 (by omega) (by omega) (by omega)
        exact ⟨cols_C' m c ⟨n + 1, hn⟩ h0 h1 h2 h3 b i' hbt (by show (n + 1) % 8 / 2 = i' + 1; omega) hc,
          rows_first m c ⟨n + 1, hn⟩ b (i' + 1) hbt (by show (n + 1) % 8 / 2 = i' + 1; omega) h1 _
            (State.rows_C m c ⟨n + 1, hn⟩ h0 h1 h2 h3),
          acc_keep m c ⟨n + 1, hn⟩ h0 h1 h2 h3 b i' ha⟩
      · have h2 : (n + 1) % 2 = 1 := by omega
        obtain rfl : j = 1 := by omega
        obtain ⟨hc, hr, ha⟩ := ih i 0 (by omega) (by omega) (by omega)
        have hi4 : 1024 * (i + 1) ≤ 4096 := by omega
        have hit : (⟨n + 1, hn⟩ : Fin cfg0.N).val % 8 / 2 = i := by show (n + 1) % 8 / 2 = i; omega
        by_cases h3 : (n + 1) % 8 = 7
        · have hr' : RowsAt m c (outsAt0 m c (n + 1) hn).2.2.2.1 b i 1 :=
            rows_step m c ⟨n + 1, hn⟩ b i 1 hbt hit h2 _ _ (State.rows_D m c ⟨n + 1, hn⟩ h0 h1 h2 h3)
              (fun r n' hn' e => hr r n' hn' e)
          exact ⟨cols_D' m c ⟨n + 1, hn⟩ h0 h1 h2 h3 b i hbt hit hc, hr',
            acc_fold_D m c ⟨n + 1, hn⟩ h0 h1 h2 h3 b i hi4 ha hr'⟩
        · have hr' : RowsAt m c (outsAt0 m c (n + 1) hn).2.2.2.1 b i 1 :=
            rows_step m c ⟨n + 1, hn⟩ b i 1 hbt hit h2 _ _ (State.rows_B m c ⟨n + 1, hn⟩ h0 h1 h2 h3)
              (fun r n' hn' e => hr r n' hn' e)
          exact ⟨cols_B' m c ⟨n + 1, hn⟩ h0 h1 h2 h3 b i hbt hit hc, hr',
            acc_fold_B m c ⟨n + 1, hn⟩ h0 h1 h2 h3 b i hi4 ha hr'⟩

/-- The last point of batch `b` writes the root of the batch's first directed squared distance into every lane of output 2 -/
theorem out2_at (c : Dev nD) (t : Fin cfg0.N) (h7 : t.val % 8 = 7) (l : Fin 128) :
    (outsAt0 m c t.val t.isLt).1 (ix3 0 0 l) = Ideal.sqrt (sqXY (P m c) (L m c) (bOf t)) :=
  out2_last m c t (by omega) (by omega) (by omega) h7 (bOf t)
    (inv_all m c t.val t.isLt (bOf t) 3 1 rfl (by omega) (by omega)).2.2 l

/-- and the root of the second into every lane of output 3. -/
theorem out3_at (c : Dev nD) (t : Fin cfg0.N) (h7 : t.val % 8 = 7) (l : Fin 128) :
    (outsAt0 m c t.val t.isLt).2.1 (ix3 0 0 l) = Ideal.sqrt (sqYX (P m c) (L m c) (bOf t)) :=
  out3_last m c t (by omega) (by omega) (by omega) h7 (bOf t)
    (inv_all m c t.val t.isLt (bOf t) 3 1 rfl (by omega) (by omega)).1 l

end Cert.KernelIdeal.Inv

end
-- ==== Proof.KernelFinal.lean ====
/-
  What the kernel program returns, from what its body leaves in the two output blocks at the last point of each batch:
  each output array holds, in row b, the value left at the last point of batch b; the lines after the region take the
  maximum over the four rows of column 0 of each array and add the two.
-/
import proofs.«152502_j46377056862526_2_alg».proof.Defs
import proofs.«152502_j46377056862526_2_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run
import Idealize.ShloMosaic.PureOps.Ideal.Laws
import Idealize.ShloMosaic.PureOps.Reduce

set_option maxRecDepth 16384

noncomputable section

namespace Cert.KernelIdeal.Final

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-! ## The two output arrays after the region -/

/-- The block index of either output window at point t is (t / 8, 0, 0). -/
theorem idx_out : ∀ t : Fin cfg0.N, win0_2.index t (0 : Fin 3) = t.val / 8 ∧ win0_2.index t (1 : Fin 3) = 0
    ∧ win0_2.index t (2 : Fin 3) = 0 ∧ win0_3.index t (0 : Fin 3) = t.val / 8 ∧ win0_3.index t (1 : Fin 3) = 0
    ∧ win0_3.index t (2 : Fin 3) = 0 :=
  (by decide +kernel : ∀ t : Fin grid0.N, _)

/-- An array of shape [4, 1, 128] that is constant along its last two axes. -/
abbrev rows (g : Fin 4 → EReal) : S4x1x128.Idx → EReal := fun y => g (y 0)

theorem flushed2_eq (g2 : Dev nD → Fin 4 → EReal)
    (h2 : ∀ (c : Dev nD) (t : Fin cfg0.N) (h7 : t.val % 8 = 7) (l : Fin 128),
      (outsAt0 m c t.val t.isLt).1 (ix3 0 0 l) = g2 c ⟨t.val / 8, by have := t.isLt; have : cfg0.N = 32 := N_0; omega⟩)
    (c : Dev nD) (t : Fin cfg0.N) (hf : (cfg0.win 2).flush t = true) :
    (dats m 0 c).flushed 2 t = ((cfg0.win 2).blk t).view.read (Elt Ideal) (rows (g2 c)) := by
  have h7 := (flush0_2 t).mp hf
  show (cfg0.win 2).cut (grid0.coords t) ((dats m 0 c).after 2 t) = _
  rw [after0_2]
  funext y
  rw [View.read_apply]
  show (outsAt0 m c t.val t.isLt).1 ((cfg0.win 2).xinj (grid0.coords t) y) = g2 c ((((cfg0.win 2).blk t).view.emb y) 0)
  have y0 : (y 0).val = 0 := by have : (y 0).val < 1 := (y 0).isLt; omega
  have y1 : (y 1).val = 0 := by have : (y 1).val < 1 := (y 1).isLt; omega
  have hx : (cfg0.win 2).xinj (grid0.coords t) y = ix3 (0 : Fin 1) (0 : Fin 1) (⟨(y 2).val, (y 2).isLt⟩ : Fin 128) := funext fun a => Fin.ext (by
    match a with
    | ⟨0, _⟩ => exact y0
    | ⟨1, _⟩ => exact y1
    | ⟨2, _⟩ => rfl)
  rw [hx]
  refine (h2 c t h7 _).trans ?_
  congr 1
  apply Fin.ext
  show t.val / 8 = win0_2.index t 0 * 1 + 1 * (y 0).val
  obtain ⟨e0, -⟩ := idx_out t
  rw [e0, y0]; omega

theorem flushed3_eq (g3 : Dev nD → Fin 4 → EReal)
    (h3 : ∀ (c : Dev nD) (t : Fin cfg0.N) (h7 : t.val % 8 = 7) (l : Fin 128),
      (outsAt0 m c t.val t.isLt).2.1 (ix3 0 0 l) = g3 c ⟨t.val / 8, by have := t.isLt; have : cfg0.N = 32 := N_0; omega⟩)
    (c : Dev nD) (t : Fin cfg0.N) (hf : (cfg0.win 3).flush t = true) :
    (dats m 0 c).flushed 3 t = ((cfg0.win 3).blk t).view.read (Elt Ideal) (rows (g3 c)) := by
  have h7 := (flush0_3 t).mp hf
  show (cfg0.win 3).cut (grid0.coords t) ((dats m 0 c).after 3 t) = _
  rw [after0_3]
  funext y
  rw [View.read_apply]
  show (outsAt0 m c t.val t.isLt).2.1 ((cfg0.win 3).xinj (grid0.coords t) y) = g3 c ((((cfg0.win 3).blk t).view.emb y) 0)
  have y0 : (y 0).val = 0 := by have : (y 0).val < 1 := (y 0).isLt; omega
  have y1 : (y 1).val = 0 := by have : (y 1).val < 1 := (y 1).isLt; omega
  have hx : (cfg0.win 3).xinj (grid0.coords t) y = ix3 (0 : Fin 1) (0 : Fin 1) (⟨(y 2).val, (y 2).isLt⟩ : Fin 128) := funext fun a => Fin.ext (by
    match a with
    | ⟨0, _⟩ => exact y0
    | ⟨1, _⟩ => exact y1
    | ⟨2, _⟩ => rfl)
  rw [hx]
  refine (h3 c t h7 _).trans ?_
  congr 1
  apply Fin.ext
  show t.val / 8 = win0_3.index t 0 * 1 + 1 * (y 0).val
  obtain ⟨-, -, -, e0, -⟩ := idx_out t
  rw [e0, y0]; omega

/-- The last point of batch b. -/
def lastPt (b : Fin 4) : Fin cfg0.N := ⟨8 * b.val + 7, by have := b.isLt; have : cfg0.N = 32 := N_0; omega⟩

theorem lastPt_mod (b : Fin 4) : (lastPt b).val % 8 = 7 := by show (8 * b.val + 7) % 8 = 7; omega
theorem lastPt_div (b : Fin 4) : (lastPt b).val / 8 = b.val := by show (8 * b.val + 7) / 8 = b.val; omega

/-- The first output array after the region: row b holds what the last point of batch b left. -/
theorem final2 (g2 : Dev nD → Fin 4 → EReal)
    (h2 : ∀ (c : Dev nD) (t : Fin cfg0.N) (h7 : t.val % 8 = 7) (l : Fin 128),
      (outsAt0 m c t.val t.isLt).1 (ix3 0 0 l) = g2 c ⟨t.val / 8, by have := t.isLt; have : cfg0.N = 32 := N_0; omega⟩)
    (c : Dev nD) : (dats m 0 c).arrAt 2 cfg0.N = rows (g2 c) :=
  (dats m 0 c).arrAt_eq_of_cover 2 (rows (g2 c)) (flushed2_eq m g2 h2 c) fun i =>
    ⟨lastPt (i 0), (flush0_2 _).mpr (lastPt_mod _), by
      show i ∈ ((View.whole main_v1_0).slice (win0_2.rect (lastPt (i 0)))).set
      rw [View.set_slice_whole, Rect.mem_set_unit]
      intro a
      obtain ⟨e0, e1, e2, -⟩ := idx_out (lastPt (i 0))
      have hd := lastPt_div (i 0)
      have h1 : (i 1 : Nat) < 1 := (i 1).isLt
      have h2' : (i 2 : Nat) < 128 := (i 2).isLt
      match a with
      | ⟨0, _⟩ =>
        show win0_2.index (lastPt (i 0)) 0 * 1 ≤ (i 0 : Nat) ∧ (i 0 : Nat) < win0_2.index (lastPt (i 0)) 0 * 1 + 1
        rw [e0, hd]; omega
      | ⟨1, _⟩ =>
        show win0_2.index (lastPt (i 0)) 1 * 1 ≤ (i 1 : Nat) ∧ (i 1 : Nat) < win0_2.index (lastPt (i 0)) 1 * 1 + 1
        rw [e1]; omega
      | ⟨2, _⟩ =>
        show win0_2.index (lastPt (i 0)) 2 * 128 ≤ (i 2 : Nat) ∧ (i 2 : Nat) < win0_2.index (lastPt (i 0)) 2 * 128 + 128
        rw [e2]; omega⟩

/-- The second output array after the region: row b holds what the last point of batch b left. -/
theorem final3 (g3 : Dev nD → Fin 4 → EReal)
    (h3 : ∀ (c : Dev nD) (t : Fin cfg0.N) (h7 : t.val % 8 = 7) (l : Fin 128),
      (outsAt0 m c t.val t.isLt).2.1 (ix3 0 0 l) = g3 c ⟨t.val / 8, by have := t.isLt; have : cfg0.N = 32 := N_0; omega⟩)
    (c : Dev nD) : (dats m 0 c).arrAt 3 cfg0.N = rows (g3 c) :=
  (dats m 0 c).arrAt_eq_of_cover 3 (rows (g3 c)) (flushed3_eq m g3 h3 c) fun i =>
    ⟨lastPt (i 0), (flush0_3 _).mpr (lastPt_mod _), by
      show i ∈ ((View.whole main_v1_1).slice (win0_3.rect (lastPt (i 0)))).set
      rw [View.set_slice_whole, Rect.mem_set_unit]
      intro a
      obtain ⟨-, -, -, e0, e1, e2⟩ := idx_out (lastPt (i 0))
      have hd := lastPt_div (i 0)
      have h1 : (i 1 : Nat) < 1 := (i 1).isLt
      have h3x : (i 2 : Nat) < 128 := (i 2).isLt
      match a with
      | ⟨0, _⟩ =>
        show win0_3.index (lastPt (i 0)) 0 * 1 ≤ (i 0 : Nat) ∧ (i 0 : Nat) < win0_3.index (lastPt (i 0)) 0 * 1 + 1
        rw [e0, hd]; omega
      | ⟨1, _⟩ =>
        show win0_3.index (lastPt (i 0)) 1 * 1 ≤ (i 1 : Nat) ∧ (i 1 : Nat) < win0_3.index (lastPt (i 0)) 1 * 1 + 1
        rw [e1]; omega
      | ⟨2, _⟩ =>
        show win0_3.index (lastPt (i 0)) 2 * 128 ≤ (i 2 : Nat) ∧ (i 2 : Nat) < win0_3.index (lastPt (i 0)) 2 * 128 + 128
        rw [e2]; omega⟩

/-! ## The lines after the region -/

/-- Column 0 of an array with constant rows, as a vector of length 4: entry b is the value of row b. -/
theorem col_apply (g : Fin 4 → EReal) (b : Fin 4) :
    shapeCast S4 (extractStridedSlice S4x1x1 ![0, 0, 0] (rows g) slices_S4x1x128_S4x1x1_0_0_0) shapeCasts_S4x1x1_S4 (ix1 b) = g b := by
  rw [shapeCast_apply _ shapeCasts_S4x1x1_S4 (ix1 b) (ix3 b (0 : Fin 1) (0 : Fin 1)) (by
    rw [Shape.rowMajor_val_three, Shape.rowMajor_val_one]
    show (b.val * 1 + 0) * 1 + 0 = b.val
    omega)]
  rw [extractStridedSlice_apply ![0, 0, 0] (rows g) slices_S4x1x128_S4x1x1_0_0_0 (ix3 b (0 : Fin 1) (0 : Fin 1))
    (ix3 b (0 : Fin 1) (0 : Fin 128)) (fun a => by
      match a with
      | ⟨0, _⟩ => exact (Nat.zero_add _).symm
      | ⟨1, _⟩ => rfl
      | ⟨2, _⟩ => rfl)]

/-- The maximum, from -∞, over that column is the maximum of the rows' values. -/
theorem colmax (X : FVec Ideal S4x1x128 .f32) (g : Fin 4 → EReal) (hX : X = rows g) (j : S_.Idx) :
    Host.reduce FloatOps.maximumf
        (shapeCast S4 (extractStridedSlice S4x1x1 ![0, 0, 0] X slices_S4x1x128_S4x1x1_0_0_0) shapeCasts_S4x1x1_S4)
        (constant S_ .f32 0xFF800000#32 : FVec Ideal S_ .f32) reducesTo_S4_S_d0 h_S_ j
      = (Finset.univ : Finset (Fin 4)).fold max ⊥ g := by
  subst hX
  rw [Host.reduce_eq_fold]
  rw [Finset.filter_true_of_mem fun i _ => funext fun b => b.elim0]
  have hinit : (constant S_ .f32 0xFF800000#32 : FVec Ideal S_ .f32) (Shape.Idx.first h_S_) = ⊥ := by
    show Ideal.ofBits .f32 0xFF800000#32 = ⊥
    simp [Ideal.ofBits, Ideal.ieee]
  rw [hinit]
  refine eq_of_forall_ge_iff fun c => ?_
  show Finset.fold max _ _ _ ≤ c ↔ _
  rw [Finset.fold_max_le, Finset.fold_max_le]
  refine and_congr_right fun _ => ⟨fun h b _ => ?_, fun h i _ => ?_⟩
  · rw [← col_apply g b]; exact h _ (Finset.mem_univ _)
  · obtain ⟨b, rfl⟩ : ∃ b : Fin 4, i = ix1 b := ⟨i 0, eq_ix1 i⟩
    rw [col_apply]; exact h _ (Finset.mem_univ _)

/-- What the lines after the region leave in the result: the two maxima over the batches, added. -/
theorem tail (g2 g3 : Dev nD → Fin 4 → EReal)
    (h2 : ∀ (c : Dev nD) (t : Fin cfg0.N) (h7 : t.val % 8 = 7) (l : Fin 128),
      (outsAt0 m c t.val t.isLt).1 (ix3 0 0 l) = g2 c ⟨t.val / 8, by have := t.isLt; have : cfg0.N = 32 := N_0; omega⟩)
    (h3 : ∀ (c : Dev nD) (t : Fin cfg0.N) (h7 : t.val % 8 = 7) (l : Fin 128),
      (outsAt0 m c t.val t.isLt).2.1 (ix3 0 0 l) = g3 c ⟨t.val / 8, by have := t.isLt; have : cfg0.N = 32 := N_0; omega⟩)
    (c : Dev nD) :
    Pipeline.afterTail₀ cfgs (dats m) 0 (V0 m) [hostOps1] c main_v8
      = fun _ => ((Finset.univ : Finset (Fin 4)).fold max ⊥ (g2 c)) + ((Finset.univ : Finset (Fin 4)).fold max ⊥ (g3 c)) := by
  unfold Pipeline.afterTail₀
  show StableHlo.after hostOps1 _ (Proc.devRef .tc main_v8) = _
  after_results
  have e2 := (Pipeline.withArrays_arr spec0 launch0.win.arr_inj c (V0 m c) (fun w => (dats m 0 c).arrAt w cfg0.N) 2).trans
    (final2 m g2 h2 c)
  have e3 := (Pipeline.withArrays_arr spec0 launch0.win.arr_inj c (V0 m c) (fun w => (dats m 0 c).arrAt w cfg0.N) 3).trans
    (final3 m g3 h3 c)
  funext j
  rw [addf_apply]
  exact congrArg₂ (· + ·) (colmax _ (g2 c) e2 j) (colmax _ (g3 c) e3 j)

/-! ## The run -/

/-- Every execution of the kernel program ends with the sum of the two maxima in its result and its arguments as they were. -/
theorem run_value (g2 g3 : Dev nD → Fin 4 → EReal)
    (h2 : ∀ (c : Dev nD) (t : Fin cfg0.N) (h7 : t.val % 8 = 7) (l : Fin 128),
        (outsAt0 m c t.val t.isLt).1 (ix3 0 0 l) = g2 c ⟨t.val / 8, by have := t.isLt; have : cfg0.N = 32 := N_0; omega⟩)
    (h3 : ∀ (c : Dev nD) (t : Fin cfg0.N) (h7 : t.val % 8 = 7) (l : Fin 128),
        (outsAt0 m c t.val t.isLt).2.1 (ix3 0 0 l) = g3 c ⟨t.val / 8, by have := t.isLt; have : cfg0.N = 32 := N_0; omega⟩) :
    θ_run defs (onTc (τ := τ) (main (F := Ideal))) ⟨m, fun _ => 0, ρ⟩ (fun r => ∀ c : Dev nD,
      r.2.mem ((c.tc : Thread nD τ).loc main_v8)
          = (fun _ => ((Finset.univ : Finset (Fin 4)).fold max ⊥ (g2 c)) + ((Finset.univ : Finset (Fin 4)).fold max ⊥ (g3 c)))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v8 (Pipeline.mem_restRefs_of main_v8 (by decide) (by decide))).trans (tail m g2 g3 h2 h3 c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.KernelIdeal.Final

end
-- ==== Proof.KernelValue.lean ====
/-
  The kernel's run, read: its result is the sum of the two largest roots over the batches.
-/
import proofs.«152502_j46377056862526_2_alg».proof.Proof.Invariant
import proofs.«152502_j46377056862526_2_alg».proof.Proof.KernelFinal

set_option maxRecDepth 16384

noncomputable section

namespace Cert.KernelIdeal.KernelValue

open Cert.KernelIdeal Cert.KernelIdeal.Gen Cert.KernelIdeal.Tile
open Idealize.ShloMosaic Idealize.ShloMosaic.TcCoe Idealize.ShloMosaic.ValueIdx Idealize.SL.Sem
open Hausdorff

/-- Every weakly fair execution of the kernel program ends with its result at the specification's value of the two
    argument arrays, which it leaves unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8)
          = (fun _ => kerVal (ptsOf (m ((c.tc : Thread nD τ).loc main_arg0))) (ptsOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Final.run_value m ρ (fun c b => Ideal.sqrt (sqXY (P m c) (L m c) b)) (fun c b => Ideal.sqrt (sqYX (P m c) (L m c) b))
    (fun c t h7 l => Inv.out2_at m c t h7 l) (fun c t h7 l => Inv.out3_at m c t h7 l)

end Cert.KernelIdeal.KernelValue

end
-- ==== Proof.lean ====
/-
  A Hausdorff loss on batches of point sets: the kernel against the reference, over the extended reals.

  The reference takes, for every pair of a point `p` of the first set and a point `l` of the second in the same batch,
  the distance √(Σ (p − l)²), then the largest over `p` (all batches at once) of the least over `l`, the same with the
  roles exchanged, and adds the two. The kernel tiles the pairs of a batch 1024 × 2048, computes each tile's SQUARED
  distances as ‖p‖² + ‖l‖² − 2·p·l clamped at zero, keeps running minima over the tiles of a row and of a column and a
  running maximum of the completed row minima, takes the square root of a batch's two maxima only at the batch's last
  tile, and the host takes the largest root over the four batches and adds.

  The two agree because: on finite entries the expansion is the sum of squared differences, which is nonnegative, so
  the clamp does nothing; the square root on the extended reals is monotone and fixes −∞ and +∞, so it passes through
  every minimum and maximum, also through their starting values; and a maximum over batches of maxima over points is
  the maximum over all pairs (batch, point).

  Modules: Spec (both values as functions of the point sets), HausMath (the three facts above), RefValue (the
  reference's result is the specification's, and the precondition makes every entry a real number), Payloads (the
  body's arithmetic at an index), Blocks and Tile (a tile's entries are the squared distances of its rows and columns),
  Pieces and State (what each control case of the body leaves in the running buffers), InvDef, InvRows, InvCols,
  InvAcc, Invariant (the running buffers after every grid point, by induction), KernelFinal and KernelValue (the
  kernel's result), Assembly (the five claims).
-/
import proofs.«152502_j46377056862526_2_alg».proof.Defs
import proofs.«152502_j46377056862526_2_alg».proof.Proof.Assembly
import proofs.«152502_j46377056862526_2_alg».proof.Proof.KernelValue

noncomputable section

namespace Cert.Proof

theorem claim : Cert.Claim := Cert.Proof.Parts.claim_of Cert.KernelIdeal.KernelValue.run

end Cert.Proof

end
